-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v95) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64x256 .f32) (main_arg13 : FVec F S64 .f32) (main_arg14 : FVec F S64x256 .f32) (main_v48 : IVec S_ 1) (main_v49 : FVec F S64x256 .f32) (main_v50 : FVec F S64x256 .f32) : IVec S_ 1 :=
  let main_v51 : IVec S64x256 1 := cmpf .olt main_v49 main_v50
  let main_c_19 : IVec S_ 1 := constantI S_ 1 1#1
  let main_v52 : IVec S_ 1 := (fun x v => Host.reduce IntOp.andi x v reducesTo_S64x256_S_d0_1 h_S_) main_v51 main_c_19
  let main_v53 : IVec S_ 1 := andi main_v48 main_v52
  let main_v54 : FVec F S64x256 .f32 := Host.absf main_arg12
  let main_cst_20 : FVec F S_ .f32 := constant S_ .f32 0x7F800000#32
  let main_v55 : FVec F S64x256 .f32 := broadcastInDim S64x256 ![] bcast_S_S64x256 main_cst_20
  let main_v56 : IVec S64x256 1 := cmpf .olt main_v54 main_v55
  let main_c_21 : IVec S_ 1 := constantI S_ 1 1#1
  let main_v57 : IVec S_ 1 := (fun x v => Host.reduce IntOp.andi x v reducesTo_S64x256_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x256 .f32 := Host.absf main_arg14
  let main_cst_24 : FVec F S_ .f32 := constant S_ .f32 0x7F800000#32
  let main_v65 : FVec F S64x256 .f32 := broadcastInDim S64x256 ![] bcast_S_S64x256 main_cst_24
  let main_v66 : IVec S64x256 1 := cmpf .olt main_v64 main_v65
  let main_c_25 : IVec S_ 1 := constantI S_ 1 1#1
  let main_v67 : IVec S_ 1 := (fun x v => Host.reduce IntOp.andi x v reducesTo_S64x256_S_d0_1 h_S_) main_v66 main_c_25
  fn_part4 (F := F) main_v63 main_v67

def fn_part2 {F : FTy → Type} [FloatOps F] (main_arg8 : FVec F S256x128 .f32) (main_arg9 : FVec F S64x256 .f32) (main_arg10 : FVec F S64 .f32) (main_arg11 : FVec F S64x256 .f32) (main_arg12 : FVec F S64x256 .f32) (main_arg13 : FVec F S64 .f32) (main_arg14 : FVec F S64x256 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S64x256 .f32 := Host.absf main_arg9
  let main_cst_14 : FVec F S_ .f32 := constant S_ .f32 0x7F800000#32
  let main_v40 : FVec F S64x256 .f32 := broadcastInDim S64x256 ![] bcast_S_S64x256 main_cst_14
  let main_v41 : IVec S64x256 1 := cmpf .olt main_v39 main_v40
  let main_c_15 : IVec S_ 1 := constantI S_ 1 1#1
  let main_v42 : IVec S_ 1 := (fun x v => Host.reduce IntOp.andi x v reducesTo_S64x256_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x256 .f32 := Host.absf main_arg11
  let main_cst_18 : FVec F S_ .f32 := constant S_ .f32 0x7F800000#32
  let main_v50 : FVec F S64x256 .f32 := broadcastInDim S64x256 ![] bcast_S_S64x256 main_cst_18
  fn_part3 (F := F) main_arg12 main_arg13 main_arg14 main_v48 main_v49 main_v50

def fn_part1 {F : FTy → Type} [FloatOps F] (main_arg5 : FVec F S256x128 .f32) (main_arg6 : FVec F S256x128 .f32) (main_arg7 : FVec F S256 .f32) (main_arg8 : FVec F S256x128 .f32) (main_arg9 : FVec F S64x256 .f32) (main_arg10 : FVec F S64 .f32) (main_arg11 : FVec F S64x256 .f32) (main_arg12 : FVec F S64x256 .f32) (main_arg13 : FVec F S64 .f32) (main_arg14 : FVec F S64x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : FVec F S50000x128 .f32) (main_arg2 : IVec S2x800000 32) (main_arg3 : FVec F S256x128 .f32) (main_arg4 : FVec F S256 .f32) (main_arg5 : FVec F S256x128 .f32) (main_arg6 : FVec F S256x128 .f32) (main_arg7 : FVec F S256 .f32) (main_arg8 : FVec F S256x128 .f32) (main_arg9 : FVec F S64x256 .f32) (main_arg10 : FVec F S64 .f32) (main_arg11 : FVec F S64x256 .f32) (main_arg12 : FVec F S64x256 .f32) (main_arg13 : FVec F S64 .f32) (main_arg14 : FVec F S64x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S256x64 : Shape := ⟨2, ![256, 64]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 135
  | .vmem => 36
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S256x128, .f32⟩
  | 4 => ⟨S256, .f32⟩
  | 5 => ⟨S256x128, .f32⟩
  | 6 => ⟨S256x128, .f32⟩
  | 7 => ⟨S256, .f32⟩
  | 8 => ⟨S256x128, .f32⟩
  | 9 => ⟨S64x256, .f32⟩
  | 10 => ⟨S64, .f32⟩
  | 11 => ⟨S64x256, .f32⟩
  | 12 => ⟨S64x256, .f32⟩
  | 13 => ⟨S64, .f32⟩
  | 14 => ⟨S64x256, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S128x256, .f32⟩
  | 45 => ⟨S128x256, .f32⟩
  | 46 => ⟨S1x256, .f32⟩
  | 47 => ⟨S50000x256, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S_, .f32⟩
  | 62 => ⟨S800000, .f32⟩
  | 63 => ⟨S_, .f32⟩
  | 64 => ⟨S50000, .f32⟩
  | 65 => ⟨S800000x1, .i32⟩
  | 66 => ⟨S50000, .f32⟩
  | 67 => ⟨S_, .f32⟩
  | 68 => ⟨S50000, .f32⟩
  | 69 => ⟨S50000, .f32⟩
  | 70 => ⟨S50000x1, .f32⟩
  | 71 => ⟨S50000x128, .f32⟩
  | 72 => ⟨S50000x128, .f32⟩
  | 73 => ⟨S128x256, .f32⟩
  | 74 => ⟨S128x256, .f32⟩
  | 75 => ⟨S1x256, .f32⟩
  | 76 => ⟨S50000x256, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x256, .f32⟩
  | 86 => ⟨S_, .f32⟩
  | 87 => ⟨S50000x256, .f32⟩
  | 88 => ⟨S800000x1, .i32⟩
  | 89 => ⟨S50000x256, .f32⟩
  | 90 => ⟨S_, .f32⟩
  | 91 => ⟨S800000, .f32⟩
  | 92 => ⟨S_, .f32⟩
  | 93 => ⟨S50000, .f32⟩
  | 94 => ⟨S800000x1, .i32⟩
  | 95 => ⟨S50000, .f32⟩
  | 96 => ⟨S_, .f32⟩
  | 97 => ⟨S50000, .f32⟩
  | 98 => ⟨S50000, .f32⟩
  | 99 => ⟨S50000x1, .f32⟩
  | 100 => ⟨S50000x256, .f32⟩
  | 101 => ⟨S50000x256, .f32⟩
  | 102 => ⟨S256x64, .f32⟩
  | 103 => ⟨S256x64, .f32⟩
  | 104 => ⟨S1x64, .f32⟩
  | 105 => ⟨S50000x64, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x256, .f32⟩
  | 115 => ⟨S_, .f32⟩
  | 116 => ⟨S50000x256, .f32⟩
  | 117 => ⟨S800000x1, .i32⟩
  | 118 => ⟨S50000x256, .f32⟩
  | 119 => ⟨S_, .f32⟩
  | 120 => ⟨S800000, .f32⟩
  | 121 => ⟨S_, .f32⟩
  | 122 => ⟨S50000, .f32⟩
  | 123 => ⟨S800000x1, .i32⟩
  | 124 => ⟨S50000, .f32⟩
  | 125 => ⟨S_, .f32⟩
  | 126 => ⟨S50000, .f32⟩
  | 127 => ⟨S50000, .f32⟩
  | _ => ⟨S50000x128, .f32⟩

abbrev hbmTy0_1 (i : Nat) : BufTy := match i % 128 with
  | 0 => ⟨S50000x1, .f32⟩
  | 1 => ⟨S50000x256, .f32⟩
  | 2 => ⟨S50000x256, .f32⟩
  | 3 => ⟨S256x64, .f32⟩
  | 4 => ⟨S256x64, .f32⟩
  | 5 => ⟨S1x64, .f32⟩
  | 6 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x256, .f32⟩
  | .local _ .vmem, ⟨14, _⟩ => ⟨S1x256, .f32⟩
  | .local _ .vmem, ⟨15, _⟩ => ⟨S128x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x64, .f32⟩
  | .local _ .vmem, ⟨23, _⟩ => ⟨S1x64, .f32⟩
  | .local _ .vmem, ⟨24, _⟩ => ⟨S256x64, .f32⟩
  | .local _ .vmem, ⟨25, _⟩ => ⟨S2000x64, .f32⟩
  | .local _ .vmem, ⟨26, _⟩ => ⟨S2000x64, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S256x64, .f32⟩
  | .local _ .vmem, ⟨32, _⟩ => ⟨S1x64, .f32⟩
  | .local _ .vmem, ⟨33, _⟩ => ⟨S256x64, .f32⟩
  | .local _ .vmem, ⟨34, _⟩ => ⟨S2000x64, .f32⟩
  | .local _ .vmem, ⟨35, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_13 : Ref sig .tc := ⟨.hbm, 90, rfl⟩
abbrev main_v60 : Ref sig .tc := ⟨.hbm, 91, rfl⟩
abbrev main_cst_14 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_15 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_18 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_19 : Ref sig .tc := ⟨.hbm, 119, rfl⟩
abbrev main_v83 : Ref sig .tc := ⟨.hbm, 120, rfl⟩
abbrev main_cst_20 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_21 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S64x256_S256x64_1_0 : S64x256.Transposes [1, 0] S256x64
  shapeCasts_S64_S1x64 : S64.ShapeCasts S1x64
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S256x64.size a
  hwx2_2 : ∀ i : grid2.Coords, EltTy.bits .f32 = 32 ∨ (Rect.block (s := S256x64) S256x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x64.size a ≤ S256x64.size a
  hwx2_4 : ∀ i : grid2.Coords, EltTy.bits .f32 = 32 ∨ (Rect.block (s := S256x64) S256x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x64.size a ≤ S256x64.size a
  hwx3_2 : ∀ i : grid3.Coords, EltTy.bits .f32 = 32 ∨ (Rect.block (s := S256x64) S256x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x64.size a ≤ S256x64.size a
  hwx3_4 : ∀ i : grid3.Coords, EltTy.bits .f32 = 32 ∨ (Rect.block (s := S256x64) S256x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S50000x64.size a
  hwx3_5 : ∀ i : grid3.Coords, EltTy.bits .f32 = 32 ∨ (Rect.block (s := S50000x64) S2000x64.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v69) S256x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S256x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v91) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v92) S256x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v94) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v93) S256x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S1x256 : Shape := ⟨2, ![1, 256]⟩
abbrev S800000x256 : Shape := ⟨2, ![800000, 256]⟩
abbrev S256x64 : Shape := ⟨2, ![256, 64]⟩
abbrev S50000x64 : Shape := ⟨2, ![50000, 64]⟩
abbrev S1x64 : Shape := ⟨2, ![1, 64]⟩

abbrev nBuf : Space → Nat
  | .hbm => 157
  | .vmem => 0
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S256x128, .f32⟩
  | 4 => ⟨S256, .f32⟩
  | 5 => ⟨S256x128, .f32⟩
  | 6 => ⟨S256x128, .f32⟩
  | 7 => ⟨S256, .f32⟩
  | 8 => ⟨S256x128, .f32⟩
  | 9 => ⟨S64x256, .f32⟩
  | 10 => ⟨S64, .f32⟩
  | 11 => ⟨S64x256, .f32⟩
  | 12 => ⟨S64x256, .f32⟩
  | 13 => ⟨S64, .f32⟩
  | 14 => ⟨S64x256, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S128x256, .f32⟩
  | 45 => ⟨S50000x256, .f32⟩
  | 46 => ⟨S1x256, .f32⟩
  | 47 => ⟨S50000x256, .f32⟩
  | 48 => ⟨S50000x256, .f32⟩
  | 49 => ⟨S128x256, .f32⟩
  | 50 => ⟨S50000x256, .f32⟩
  | 51 => ⟨S50000x256, .f32⟩
  | 52 => ⟨S_, .f32⟩
  | 53 => ⟨S50000x256, .f32⟩
  | 54 => ⟨S50000x256, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S_, .f32⟩
  | 69 => ⟨S800000, .f32⟩
  | 70 => ⟨S_, .f32⟩
  | 71 => ⟨S50000, .f32⟩
  | 72 => ⟨S800000x1, .i32⟩
  | 73 => ⟨S50000, .f32⟩
  | 74 => ⟨S_, .f32⟩
  | 75 => ⟨S50000, .f32⟩
  | 76 => ⟨S50000, .f32⟩
  | 77 => ⟨S50000x1, .f32⟩
  | 78 => ⟨S50000x128, .f32⟩
  | 79 => ⟨S50000x128, .f32⟩
  | 80 => ⟨S128x256, .f32⟩
  | 81 => ⟨S50000x256, .f32⟩
  | 82 => ⟨S1x256, .f32⟩
  | 83 => ⟨S50000x256, .f32⟩
  | 84 => ⟨S50000x256, .f32⟩
  | 85 => ⟨S128x256, .f32⟩
  | 86 => ⟨S50000x256, .f32⟩
  | 87 => ⟨S50000x256, .f32⟩
  | 88 => ⟨S_, .f32⟩
  | 89 => ⟨S50000x256, .f32⟩
  | 90 => ⟨S50000x256, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x256, .f32⟩
  | 100 => ⟨S_, .f32⟩
  | 101 => ⟨S50000x256, .f32⟩
  | 102 => ⟨S800000x1, .i32⟩
  | 103 => ⟨S50000x256, .f32⟩
  | 104 => ⟨S_, .f32⟩
  | 105 => ⟨S800000, .f32⟩
  | 106 => ⟨S_, .f32⟩
  | 107 => ⟨S50000, .f32⟩
  | 108 => ⟨S800000x1, .i32⟩
  | 109 => ⟨S50000, .f32⟩
  | 110 => ⟨S_, .f32⟩
  | 111 => ⟨S50000, .f32⟩
  | 112 => ⟨S50000, .f32⟩
  | 113 => ⟨S50000x1, .f32⟩
  | 114 => ⟨S50000x256, .f32⟩
  | 115 => ⟨S50000x256, .f32⟩
  | 116 => ⟨S256x64, .f32⟩
  | 117 => ⟨S50000x64, .f32⟩
  | 118 => ⟨S1x64, .f32⟩
  | 119 => ⟨S50000x64, .f32⟩
  | 120 => ⟨S50000x64, .f32⟩
  | 121 => ⟨S256x64, .f32⟩
  | 122 => ⟨S50000x64, .f32⟩
  | 123 => ⟨S50000x64, .f32⟩
  | 124 => ⟨S_, .i32⟩
  | 125 => ⟨S800000, .i32⟩
  | 126 => ⟨S800000, .i1⟩
  | 127 => ⟨S_, .i32⟩
  | _ => ⟨S50000x128, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x256, .f32⟩
  | 5 => ⟨S_, .f32⟩
  | 6 => ⟨S50000x256, .f32⟩
  | 7 => ⟨S800000x1, .i32⟩
  | 8 => ⟨S50000x256, .f32⟩
  | 9 => ⟨S_, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S50000, .f32⟩
  | 17 => ⟨S50000, .f32⟩
  | 18 => ⟨S50000x1, .f32⟩
  | 19 => ⟨S50000x256, .f32⟩
  | 20 => ⟨S50000x256, .f32⟩
  | 21 => ⟨S256x64, .f32⟩
  | 22 => ⟨S50000x64, .f32⟩
  | 23 => ⟨S1x64, .f32⟩
  | 24 => ⟨S50000x64, .f32⟩
  | 25 => ⟨S50000x64, .f32⟩
  | 26 => ⟨S256x64, .f32⟩
  | 27 => ⟨S50000x64, .f32⟩
  | 28 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_cst : Ref sig .tc := ⟨.hbm, 52, rfl⟩
abbrev main_call0_v0 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call1_cst : Ref sig .tc := ⟨.hbm, 88, rfl⟩
abbrev main_call1_v0 : Ref sig .tc := ⟨.hbm, 89, rfl⟩
abbrev main_v59 : Ref sig .tc := ⟨.hbm, 90, rfl⟩
abbrev main_c_10 : Ref sig .tc := ⟨.hbm, 91, rfl⟩
abbrev main_v60 : Ref sig .tc := ⟨.hbm, 92, rfl⟩
abbrev main_v61 : Ref sig .tc := ⟨.hbm, 93, rfl⟩
abbrev main_c_11 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_13 : Ref sig .tc := ⟨.hbm, 104, rfl⟩
abbrev main_v70 : Ref sig .tc := ⟨.hbm, 105, rfl⟩
abbrev main_cst_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_15 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_16 : Ref sig .tc := ⟨.hbm, 124, rfl⟩
abbrev main_v87 : Ref sig .tc := ⟨.hbm, 125, rfl⟩
abbrev main_v88 : Ref sig .tc := ⟨.hbm, 126, rfl⟩
abbrev main_c_17 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_18 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_19 : Ref sig .tc := ⟨.hbm, 137, rfl⟩
abbrev main_v97 : Ref sig .tc := ⟨.hbm, 138, rfl⟩
abbrev main_cst_20 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_21 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S64x256_S256x64_1_0 : S64x256.Transposes [1, 0] S256x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KRun.lean ====
/-
  The idealized kernel's run, with every buffer named.

  The program is eight segments: four stretches of host operations (the neighbour aggregation: gather the source
  rows along the edges, add them into their destination rows, divide by the clipped in-degree; and the transposes
  of the weights) alternating with four dense-layer kernels.  The contents of the device's buffers at the eight
  boundaries are a fold from the launch memory: a host stretch applies its operations; a kernel leaves its output
  array at what its grid points wrote back and every other buffer as it found it.  Every weakly fair execution
  terminates, without a fault, in a memory that holds, at every buffer that outlives the kernels, the last value
  of that fold.  In particular the two results are the fold's values at their two buffers, and the arguments are
  as launched.
-/
import proofs.«151542_j71408126263375_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends, without a fault, with every buffer that outlives the kernels at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run read at the two results and the fifteen arguments. -/
theorem run_results : θ_run defs (onTc (τ := τ) (main (F := F))) ⟨m, fun _ => 0, ρ⟩ (fun r => ∀ c : Dev nD,
      r.2.mem ((c.tc : Thread nD τ).loc main_v72) = W8 m ρ c (Proc.devRef .tc main_v72)
      ∧ r.2.mem ((c.tc : Thread nD τ).loc main_v95) = W8 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v72 (by decide)),
     h c _ (mem_uc main_v95 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c)⟩)
    (run_all m ρ)

end Cert.KernelIdeal.Run

end
-- ==== Proof.ChainA.lean ====
/-
  What the idealized kernel's segments carry along unchanged.

  The program alternates stretches of host operations with dense-layer kernels.  The contents of the buffers at each
  boundary are a fold from the launch memory.  This module reads that fold at the buffers a segment does NOT write: the
  arguments, the two rows of the edge list, and each layer's output after its kernel.
-/
import proofs.«151542_j71408126263375_1_alg».proof.Proof.Gen.KernelIdeal.Frame
import proofs.«151542_j71408126263375_1_alg».proof.Proof.Gen.ReferenceIdeal.Read

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## What is carried unchanged

An argument array, and the two rows of the edge list once the first stretch has cut them out, are written by no later
operation and by no kernel: at every later boundary they hold what they held. -/

theorem w1_arg0 : W1 m ρ c (Proc.devRef .tc main_arg0) = (m ((c : Thread nD τ).loc main_arg0)) := by
  show StableHlo.after hostOps0 (W0 m ρ c) (Proc.devRef .tc main_arg0) = _
  after_results
  all_goals rfl

theorem w2_arg0 : W2 m ρ c (Proc.devRef .tc main_arg0) = (m ((c : Thread nD τ).loc main_arg0)) :=
  (W2_of_ne m ρ c main_arg0 (by decide)).trans (w1_arg0 m ρ c)

theorem w3_arg0 : W3 m ρ c (Proc.devRef .tc main_arg0) = (m ((c : Thread nD τ).loc main_arg0)) := by
  show StableHlo.after hostOps1 (W2 m ρ c) (Proc.devRef .tc main_arg0) = _
  after_results
  all_goals exact w2_arg0 m ρ c

theorem w1_arg1 : W1 m ρ c (Proc.devRef .tc main_arg1) = (m ((c : Thread nD τ).loc main_arg1)) := by
  show StableHlo.after hostOps0 (W0 m ρ c) (Proc.devRef .tc main_arg1) = _
  after_results
  all_goals rfl

/-- The first kernel reads this argument through an input window and never writes it. -/
theorem w2_arg1 : W2 m ρ c (Proc.devRef .tc main_arg1) = (m ((c : Thread nD τ).loc main_arg1)) :=
  (W2_arr m ρ c 1).trans (((dat0 (V1 m ρ) c).arrAt_in 1 rfl _).trans ((A_eq0 (V1 m ρ) c 1).trans (w1_arg1 m ρ c)))

theorem w1_arg6 : W1 m ρ c (Proc.devRef .tc main_arg6) = (m ((c : Thread nD τ).loc main_arg6)) := by
  show StableHlo.after hostOps0 (W0 m ρ c) (Proc.devRef .tc main_arg6) = _
  after_results
  all_goals rfl

theorem w2_arg6 : W2 m ρ c (Proc.devRef .tc main_arg6) = (m ((c : Thread nD τ).loc main_arg6)) :=
  (W2_of_ne m ρ c main_arg6 (by decide)).trans (w1_arg6 m ρ c)

theorem w1_arg7 : W1 m ρ c (Proc.devRef .tc main_arg7) = (m ((c : Thread nD τ).loc main_arg7)) := by
  show StableHlo.after hostOps0 (W0 m ρ c) (Proc.devRef .tc main_arg7) = _
  after_results
  all_goals rfl

theorem w2_arg7 : W2 m ρ c (Proc.devRef .tc main_arg7) = (m ((c : Thread nD τ).loc main_arg7)) :=
  (W2_of_ne m ρ c main_arg7 (by decide)).trans (w1_arg7 m ρ c)

theorem w1_arg8 : W1 m ρ c (Proc.devRef .tc main_arg8) = (m ((c : Thread nD τ).loc main_arg8)) := by
  show StableHlo.after hostOps0 (W0 m ρ c) (Proc.devRef .tc main_arg8) = _
  after_results
  all_goals rfl

theorem w2_arg8 : W2 m ρ c (Proc.devRef .tc main_arg8) = (m ((c : Thread nD τ).loc main_arg8)) :=
  (W2_of_ne m ρ c main_arg8 (by decide)).trans (w1_arg8 m ρ c)

theorem w1_arg9 : W1 m ρ c (Proc.devRef .tc main_arg9) = (m ((c : Thread nD τ).loc main_arg9)) := by
  show StableHlo.after hostOps0 (W0 m ρ c) (Proc.devRef .tc main_arg9) = _
  after_results
  all_goals rfl

theorem w2_arg9 : W2 m ρ c (Proc.devRef .tc main_arg9) = (m ((c : Thread nD τ).loc main_arg9)) :=
  (W2_of_ne m ρ c main_arg9 (by decide)).trans (w1_arg9 m ρ c)

theorem w3_arg9 : W3 m ρ c (Proc.devRef .tc main_arg9) = (m ((c : Thread nD τ).loc main_arg9)) := by
  show StableHlo.after hostOps1 (W2 m ρ c) (Proc.devRef .tc main_arg9) = _
  after_results
  all_goals exact w2_arg9 m ρ c

theorem w4_arg9 : W4 m ρ c (Proc.devRef .tc main_arg9) = (m ((c : Thread nD τ).loc main_arg9)) :=
  (W4_of_ne m ρ c main_arg9 (by decide)).trans (w3_arg9 m ρ c)

theorem w1_arg10 : W1 m ρ c (Proc.devRef .tc main_arg10) = (m ((c : Thread nD τ).loc main_arg10)) := by
  show StableHlo.after hostOps0 (W0 m ρ c) (Proc.devRef .tc main_arg10) = _
  after_results
  all_goals rfl

theorem w2_arg10 : W2 m ρ c (Proc.devRef .tc main_arg10) = (m ((c : Thread nD τ).loc main_arg10)) :=
  (W2_of_ne m ρ c main_arg10 (by decide)).trans (w1_arg10 m ρ c)

theorem w3_arg10 : W3 m ρ c (Proc.devRef .tc main_arg10) = (m ((c : Thread nD τ).loc main_arg10)) := by
  show StableHlo.after hostOps1 (W2 m ρ c) (Proc.devRef .tc main_arg10) = _
  after_results
  all_goals exact w2_arg10 m ρ c

theorem w4_arg10 : W4 m ρ c (Proc.devRef .tc main_arg10) = (m ((c : Thread nD τ).loc main_arg10)) :=
  (W4_of_ne m ρ c main_arg10 (by decide)).trans (w3_arg10 m ρ c)

theorem w1_arg11 : W1 m ρ c (Proc.devRef .tc main_arg11) = (m ((c : Thread nD τ).loc main_arg11)) := by
  show StableHlo.after hostOps0 (W0 m ρ c) (Proc.devRef .tc main_arg11) = _
  after_results
  all_goals rfl

theorem w2_arg11 : W2 m ρ c (Proc.devRef .tc main_arg11) = (m ((c : Thread nD τ).loc main_arg11)) :=
  (W2_of_ne m ρ c main_arg11 (by decide)).trans (w1_arg11 m ρ c)

theorem w3_arg11 : W3 m ρ c (Proc.devRef .tc main_arg11) = (m ((c : Thread nD τ).loc main_arg11)) := by
  show StableHlo.after hostOps1 (W2 m ρ c) (Proc.devRef .tc main_arg11) = _
  after_results
  all_goals exact w2_arg11 m ρ c

theorem w4_arg11 : W4 m ρ c (Proc.devRef .tc main_arg11) = (m ((c : Thread nD τ).loc main_arg11)) :=
  (W4_of_ne m ρ c main_arg11 (by decide)).trans (w3_arg11 m ρ c)

theorem w1_arg12 : W1 m ρ c (Proc.devRef .tc main_arg12) = (m ((c : Thread nD τ).loc main_arg12)) := by
  show StableHlo.after hostOps0 (W0 m ρ c) (Proc.devRef .tc main_arg12) = _
  after_results
  all_goals rfl

theorem w2_arg12 : W2 m ρ c (Proc.devRef .tc main_arg12) = (m ((c : Thread nD τ).loc main_arg12)) :=
  (W2_of_ne m ρ c main_arg12 (by decide)).trans (w1_arg12 m ρ c)

theorem w3_arg12 : W3 m ρ c (Proc.devRef .tc main_arg12) = (m ((c : Thread nD τ).loc main_arg12)) := by
  show StableHlo.after hostOps1 (W2 m ρ c) (Proc.devRef .tc main_arg12) = _
  after_results
  all_goals exact w2_arg12 m ρ c

theorem w4_arg12 : W4 m ρ c (Proc.devRef .tc main_arg12) = (m ((c : Thread nD τ).loc main_arg12)) :=
  (W4_of_ne m ρ c main_arg12 (by decide)).trans (w3_arg12 m ρ c)

theorem w5_arg12 : W5 m ρ c (Proc.devRef .tc main_arg12) = (m ((c : Thread nD τ).loc main_arg12)) := by
  show StableHlo.after hostOps2 (W4 m ρ c) (Proc.devRef .tc main_arg12) = _
  after_results
  all_goals exact w4_arg12 m ρ c

theorem w6_arg12 : W6 m ρ c (Proc.devRef .tc main_arg12) = (m ((c : Thread nD τ).loc main_arg12)) :=
  (W6_of_ne m ρ c main_arg12 (by decide)).trans (w5_arg12 m ρ c)

theorem w1_arg13 : W1 m ρ c (Proc.devRef .tc main_arg13) = (m ((c : Thread nD τ).loc main_arg13)) := by
  show StableHlo.after hostOps0 (W0 m ρ c) (Proc.devRef .tc main_arg13) = _
  after_results
  all_goals rfl

theorem w2_arg13 : W2 m ρ c (Proc.devRef .tc main_arg13) = (m ((c : Thread nD τ).loc main_arg13)) :=
  (W2_of_ne m ρ c main_arg13 (by decide)).trans (w1_arg13 m ρ c)

theorem w3_arg13 : W3 m ρ c (Proc.devRef .tc main_arg13) = (m ((c : Thread nD τ).loc main_arg13)) := by
  show StableHlo.after hostOps1 (W2 m ρ c) (Proc.devRef .tc main_arg13) = _
  after_results
  all_goals exact w2_arg13 m ρ c

theorem w4_arg13 : W4 m ρ c (Proc.devRef .tc main_arg13) = (m ((c : Thread nD τ).loc main_arg13)) :=
  (W4_of_ne m ρ c main_arg13 (by decide)).trans (w3_arg13 m ρ c)

theorem w5_arg13 : W5 m ρ c (Proc.devRef .tc main_arg13) = (m ((c : Thread nD τ).loc main_arg13)) := by
  show StableHlo.after hostOps2 (W4 m ρ c) (Proc.devRef .tc main_arg13) = _
  after_results
  all_goals exact w4_arg13 m ρ c

theorem w6_arg13 : W6 m ρ c (Proc.devRef .tc main_arg13) = (m ((c : Thread nD τ).loc main_arg13)) :=
  (W6_of_ne m ρ c main_arg13 (by decide)).trans (w5_arg13 m ρ c)

theorem w1_arg14 : W1 m ρ c (Proc.devRef .tc main_arg14) = (m ((c : Thread nD τ).loc main_arg14)) := by
  show StableHlo.after hostOps0 (W0 m ρ c) (Proc.devRef .tc main_arg14) = _
  after_results
  all_goals rfl

theorem w2_arg14 : W2 m ρ c (Proc.devRef .tc main_arg14) = (m ((c : Thread nD τ).loc main_arg14)) :=
  (W2_of_ne m ρ c main_arg14 (by decide)).trans (w1_arg14 m ρ c)

theorem w3_arg14 : W3 m ρ c (Proc.devRef .tc main_arg14) = (m ((c : Thread nD τ).loc main_arg14)) := by
  show StableHlo.after hostOps1 (W2 m ρ c) (Proc.devRef .tc main_arg14) = _
  after_results
  all_goals exact w2_arg14 m ρ c

theorem w4_arg14 : W4 m ρ c (Proc.devRef .tc main_arg14) = (m ((c : Thread nD τ).loc main_arg14)) :=
  (W4_of_ne m ρ c main_arg14 (by decide)).trans (w3_arg14 m ρ c)

theorem w5_arg14 : W5 m ρ c (Proc.devRef .tc main_arg14) = (m ((c : Thread nD τ).loc main_arg14)) := by
  show StableHlo.after hostOps2 (W4 m ρ c) (Proc.devRef .tc main_arg14) = _
  after_results
  all_goals exact w4_arg14 m ρ c

theorem w6_arg14 : W6 m ρ c (Proc.devRef .tc main_arg14) = (m ((c : Thread nD τ).loc main_arg14)) :=
  (W6_of_ne m ρ c main_arg14 (by decide)).trans (w5_arg14 m ρ c)

theorem w1_v1 : W1 m ρ c (Proc.devRef .tc main_v1) = Cert.ReferenceIdeal.Read.val_main_v1 (F := Ideal) (m ((c : Thread nD τ).loc main_arg2)) := by
  show StableHlo.after hostOps0 (W0 m ρ c) (Proc.devRef .tc main_v1) = _
  after_results
  all_goals rfl

theorem w2_v1 : W2 m ρ c (Proc.devRef .tc main_v1) = Cert.ReferenceIdeal.Read.val_main_v1 (F := Ideal) (m ((c : Thread nD τ).loc main_arg2)) :=
  (W2_of_ne m ρ c main_v1 (by decide)).trans (w1_v1 m ρ c)

theorem w3_v1 : W3 m ρ c (Proc.devRef .tc main_v1) = Cert.ReferenceIdeal.Read.val_main_v1 (F := Ideal) (m ((c : Thread nD τ).loc main_arg2)) := by
  show StableHlo.after hostOps1 (W2 m ρ c) (Proc.devRef .tc main_v1) = _
  after_results
  all_goals exact w2_v1 m ρ c

theorem w4_v1 : W4 m ρ c (Proc.devRef .tc main_v1) = Cert.ReferenceIdeal.Read.val_main_v1 (F := Ideal) (m ((c : Thread nD τ).loc main_arg2)) :=
  (W4_of_ne m ρ c main_v1 (by decide)).trans (w3_v1 m ρ c)

theorem w5_v1 : W5 m ρ c (Proc.devRef .tc main_v1) = Cert.ReferenceIdeal.Read.val_main_v1 (F := Ideal) (m ((c : Thread nD τ).loc main_arg2)) := by
  show StableHlo.after hostOps2 (W4 m ρ c) (Proc.devRef .tc main_v1) = _
  after_results
  all_goals exact w4_v1 m ρ c

theorem w6_v1 : W6 m ρ c (Proc.devRef .tc main_v1) = Cert.ReferenceIdeal.Read.val_main_v1 (F := Ideal) (m ((c : Thread nD τ).loc main_arg2)) :=
  (W6_of_ne m ρ c main_v1 (by decide)).trans (w5_v1 m ρ c)

theorem w1_v3 : W1 m ρ c (Proc.devRef .tc main_v3) = Cert.ReferenceIdeal.Read.val_main_v3 (F := Ideal) (m ((c : Thread nD τ).loc main_arg2)) := by
  show StableHlo.after hostOps0 (W0 m ρ c) (Proc.devRef .tc main_v3) = _
  after_results
  all_goals rfl

theorem w2_v3 : W2 m ρ c (Proc.devRef .tc main_v3) = Cert.ReferenceIdeal.Read.val_main_v3 (F := Ideal) (m ((c : Thread nD τ).loc main_arg2)) :=
  (W2_of_ne m ρ c main_v3 (by decide)).trans (w1_v3 m ρ c)

theorem w3_v3 : W3 m ρ c (Proc.devRef .tc main_v3) = Cert.ReferenceIdeal.Read.val_main_v3 (F := Ideal) (m ((c : Thread nD τ).loc main_arg2)) := by
  show StableHlo.after hostOps1 (W2 m ρ c) (Proc.devRef .tc main_v3) = _
  after_results
  all_goals exact w2_v3 m ρ c

theorem w4_v3 : W4 m ρ c (Proc.devRef .tc main_v3) = Cert.ReferenceIdeal.Read.val_main_v3 (F := Ideal) (m ((c : Thread nD τ).loc main_arg2)) :=
  (W4_of_ne m ρ c main_v3 (by decide)).trans (w3_v3 m ρ c)

theorem w5_v3 : W5 m ρ c (Proc.devRef .tc main_v3) = Cert.ReferenceIdeal.Read.val_main_v3 (F := Ideal) (m ((c : Thread nD τ).loc main_arg2)) := by
  show StableHlo.after hostOps2 (W4 m ρ c) (Proc.devRef .tc main_v3) = _
  after_results
  all_goals exact w4_v3 m ρ c

theorem w6_v3 : W6 m ρ c (Proc.devRef .tc main_v3) = Cert.ReferenceIdeal.Read.val_main_v3 (F := Ideal) (m ((c : Thread nD τ).loc main_arg2)) :=
  (W6_of_ne m ρ c main_v3 (by decide)).trans (w5_v3 m ρ c)

/-! ## A layer's output stays where its kernel left it

No later host operation and no later kernel writes a layer's output array. -/

theorem t3_v26 : W3 m ρ c (Proc.devRef .tc main_v26) = W2 m ρ c (Proc.devRef .tc main_v26) := by
  show StableHlo.after hostOps1 (W2 m ρ c) (Proc.devRef .tc main_v26) = _
  after_results
  all_goals rfl

theorem t4_v26 : W4 m ρ c (Proc.devRef .tc main_v26) = W3 m ρ c (Proc.devRef .tc main_v26) :=
  W4_of_ne m ρ c main_v26 (by decide)

theorem t5_v26 : W5 m ρ c (Proc.devRef .tc main_v26) = W4 m ρ c (Proc.devRef .tc main_v26) := by
  show StableHlo.after hostOps2 (W4 m ρ c) (Proc.devRef .tc main_v26) = _
  after_results
  all_goals rfl

theorem t6_v26 : W6 m ρ c (Proc.devRef .tc main_v26) = W5 m ρ c (Proc.devRef .tc main_v26) :=
  W6_of_ne m ρ c main_v26 (by decide)

theorem t7_v26 : W7 m ρ c (Proc.devRef .tc main_v26) = W6 m ρ c (Proc.devRef .tc main_v26) := by
  show StableHlo.after hostOps3 (W6 m ρ c) (Proc.devRef .tc main_v26) = _
  after_results
  all_goals rfl

theorem t5_v49 : W5 m ρ c (Proc.devRef .tc main_v49) = W4 m ρ c (Proc.devRef .tc main_v49) := by
  show StableHlo.after hostOps2 (W4 m ρ c) (Proc.devRef .tc main_v49) = _
  after_results
  all_goals rfl

/-- The third kernel reads the second output through an input window and never writes it. -/
theorem t6_v49 : W6 m ρ c (Proc.devRef .tc main_v49) = W5 m ρ c (Proc.devRef .tc main_v49) :=
  (W6_arr m ρ c 1).trans (((dat2 (V5 m ρ) c).arrAt_in 1 rfl _).trans (A_eq2 (V5 m ρ) c 1))

theorem t7_v72 : W7 m ρ c (Proc.devRef .tc main_v72) = W6 m ρ c (Proc.devRef .tc main_v72) := by
  show StableHlo.after hostOps3 (W6 m ρ c) (Proc.devRef .tc main_v72) = _
  after_results
  all_goals rfl

theorem t8_v72 : W8 m ρ c (Proc.devRef .tc main_v72) = W7 m ρ c (Proc.devRef .tc main_v72) :=
  W8_of_ne m ρ c main_v72 (by decide)

end Cert.KernelIdeal.Chain

end
-- ==== Proof.ChainS.lean ====
/-
  What each stretch of host operations of the idealized kernel produces.

  The program alternates stretches of host operations with dense-layer kernels.  The contents of the buffers at each
  boundary are a fold from the launch memory.  This module reads that fold at the buffers the next segment reads:
  what a stretch of host operations leaves in the arrays the next kernel takes, stated with the reference program's
  own stage functions (the two programs aggregate with the same operations), and what is merely carried along.
-/
import proofs.«151542_j71408126263375_1_alg».proof.Proof.Gen.KernelIdeal.Frame
import proofs.«151542_j71408126263375_1_alg».proof.Proof.Gen.ReferenceIdeal.Read
import proofs.«151542_j71408126263375_1_alg».proof.Proof.ChainA

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## What each stretch of host operations produces

Each stretch is the same text as the matching lines of the reference: cut the two rows out of the edge list, wrap a
negative index, gather the source rows, add them into their destination rows, count the edges into each destination,
divide by the count clipped below at one; and transpose the two weight matrices.  So, read from buffers that hold
what the reference's stages hold, its results ARE the reference's next stages — by unfolding, with no arithmetic.  Only
the bias is laid out differently (a reshape of the vector to one row, where the reference broadcasts): it is kept as
that reshape here and read at an index where the two layers meet. -/

theorem s0_v22 : W1 m ρ c (Proc.devRef .tc main_v22) = Cert.ReferenceIdeal.Read.val_main_v22 (F := Ideal) (m ((c : Thread nD τ).loc main_arg0)) (m ((c : Thread nD τ).loc main_arg2)) := by
  show StableHlo.after hostOps0 (W0 m ρ c) (Proc.devRef .tc main_v22) = _
  after_results_simp
  rfl

theorem s0_v23 : W1 m ρ c (Proc.devRef .tc main_v23) = Cert.ReferenceIdeal.Read.val_main_v23 (F := Ideal) (m ((c : Thread nD τ).loc main_arg3)) := by
  show StableHlo.after hostOps0 (W0 m ρ c) (Proc.devRef .tc main_v23) = _
  after_results_simp
  rfl

theorem s0_v24 : W1 m ρ c (Proc.devRef .tc main_v24) = Cert.ReferenceIdeal.Read.val_main_v28 (F := Ideal) (m ((c : Thread nD τ).loc main_arg5)) := by
  show StableHlo.after hostOps0 (W0 m ρ c) (Proc.devRef .tc main_v24) = _
  after_results_simp
  rfl

theorem s0_v25 : W1 m ρ c (Proc.devRef .tc main_v25) = shapeCast S1x256 (m ((c : Thread nD τ).loc main_arg4)) shapeCasts_S256_S1x256 := by
  show StableHlo.after hostOps0 (W0 m ρ c) (Proc.devRef .tc main_v25) = _
  after_results_simp
  rfl

theorem s1_v45 : W3 m ρ c (Proc.devRef .tc main_v45) = Cert.ReferenceIdeal.Read.val_main_v50 (F := Ideal) (m ((c : Thread nD τ).loc main_arg1)) (m ((c : Thread nD τ).loc main_arg2)) := by
  show StableHlo.after hostOps1 (W2 m ρ c) (Proc.devRef .tc main_v45) = _
  after_results_simp
  rw [w2_arg1 m ρ c, w2_v1 m ρ c, w2_v3 m ρ c]
  rfl

theorem s1_v46 : W3 m ρ c (Proc.devRef .tc main_v46) = Cert.ReferenceIdeal.Read.val_main_v51 (F := Ideal) (m ((c : Thread nD τ).loc main_arg6)) := by
  show StableHlo.after hostOps1 (W2 m ρ c) (Proc.devRef .tc main_v46) = _
  after_results_simp
  rw [w2_arg6 m ρ c]
  rfl

theorem s1_v47 : W3 m ρ c (Proc.devRef .tc main_v47) = Cert.ReferenceIdeal.Read.val_main_v56 (F := Ideal) (m ((c : Thread nD τ).loc main_arg8)) := by
  show StableHlo.after hostOps1 (W2 m ρ c) (Proc.devRef .tc main_v47) = _
  after_results_simp
  rw [w2_arg8 m ρ c]
  rfl

theorem s1_v48 : W3 m ρ c (Proc.devRef .tc main_v48) = shapeCast S1x256 (m ((c : Thread nD τ).loc main_arg7)) shapeCasts_S256_S1x256 := by
  show StableHlo.after hostOps1 (W2 m ρ c) (Proc.devRef .tc main_v48) = _
  after_results_simp
  rw [w2_arg7 m ρ c]
  rfl

/-- The second layer's aggregation of the first layer's user-side output, given that output (`h`). -/
theorem s2_v68
    (h : W4 m ρ c (Proc.devRef .tc main_v26) = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :
    W5 m ρ c (Proc.devRef .tc main_v68) = Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v68) = _
  after_results_simp
  rw [h, w4_v1 m ρ c, w4_v3 m ρ c]
  rfl

theorem s2_v69 : W5 m ρ c (Proc.devRef .tc main_v69) = Cert.ReferenceIdeal.Read.val_main_v79 (F := Ideal) (m ((c : Thread nD τ).loc main_arg9)) := by
  show StableHlo.after hostOps2 (W4 m ρ c) (Proc.devRef .tc main_v69) = _
  after_results_simp
  rw [w4_arg9 m ρ c]
  rfl

theorem s2_v70 : W5 m ρ c (Proc.devRef .tc main_v70) = Cert.ReferenceIdeal.Read.val_main_v84 (F := Ideal) (m ((c : Thread nD τ).loc main_arg11)) := by
  show StableHlo.after hostOps2 (W4 m ρ c) (Proc.devRef .tc main_v70) = _
  after_results_simp
  rw [w4_arg11 m ρ c]
  rfl

theorem s2_v71 : W5 m ρ c (Proc.devRef .tc main_v71) = shapeCast S1x64 (m ((c : Thread nD τ).loc main_arg10)) shapeCasts_S64_S1x64 := by
  show StableHlo.after hostOps2 (W4 m ρ c) (Proc.devRef .tc main_v71) = _
  after_results_simp
  rw [w4_arg10 m ρ c]
  rfl

/-- The second layer's aggregation of the first layer's product-side output, given that output (`h`). -/
theorem s3_v91
    (h : W6 m ρ c (Proc.devRef .tc main_v49) = Cert.ReferenceIdeal.Read.val_main_v59 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8))) :
    W7 m ρ c (Proc.devRef .tc main_v91) = Cert.ReferenceIdeal.Read.val_main_v105 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) := by
  show StableHlo.after hostOps3 (W6 m ρ c) (Proc.devRef .tc main_v91) = _
  after_results_simp
  rw [h, w6_v1 m ρ c, w6_v3 m ρ c]
  rfl

theorem s3_v92 : W7 m ρ c (Proc.devRef .tc main_v92) = Cert.ReferenceIdeal.Read.val_main_v106 (F := Ideal) (m ((c : Thread nD τ).loc main_arg12)) := by
  show StableHlo.after hostOps3 (W6 m ρ c) (Proc.devRef .tc main_v92) = _
  after_results_simp
  rw [w6_arg12 m ρ c]
  rfl

theorem s3_v93 : W7 m ρ c (Proc.devRef .tc main_v93) = Cert.ReferenceIdeal.Read.val_main_v111 (F := Ideal) (m ((c : Thread nD τ).loc main_arg14)) := by
  show StableHlo.after hostOps3 (W6 m ρ c) (Proc.devRef .tc main_v93) = _
  after_results_simp
  rw [w6_arg14 m ρ c]
  rfl

theorem s3_v94 : W7 m ρ c (Proc.devRef .tc main_v94) = shapeCast S1x64 (m ((c : Thread nD τ).loc main_arg13)) shapeCasts_S64_S1x64 := by
  show StableHlo.after hostOps3 (W6 m ρ c) (Proc.devRef .tc main_v94) = _
  after_results_simp
  rw [w6_arg13 m ρ c]
  rfl

end Cert.KernelIdeal.Chain

end
-- ==== Proof.LibPlain.lean ====
/-
  A plain matrix product and a row maximum, read at coordinates, at the extended reals.

  A product of an `M × K` by a `K × N` matrix with the standard dimension numbers — contract the left operand's
  axis 1 with the right operand's axis 0, no batch axis — is, at `(a, b)`, the sum over `c` of the entries
  `(a, c)` and `(c, b)`: for a product accumulated into a zero array and for the host's product alike, whatever
  record carries the dimension numbers, as long as it is the standard one.
  The maximum over the last axis of an `a × b` array, started from `-∞`, is at row `p` the fold of `max` from `⊥`
  over the row's entries.
-/
import Idealize.ShloMosaic.Lib.StackMember
import Idealize.ShloMosaic.Lib.KernelVsHost
import Idealize.ShloMosaic.PureOps.Ideal.Laws
import Idealize.ShloMosaic.Lib.ValueIdx

noncomputable section

namespace Cert.LibPlain

open Idealize.ShloMosaic Idealize.ShloMosaic.ValueIdx

/-- The host's product with the standard dimension numbers, at `(a, b)`: `∑ c, A (a, c) * B (c, b)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    Host.dotGeneral d prec A B (ix2 a b) = ∑ c : Fin K, A (ix2 a c) * B (ix2 c b) := by
  subst hd
  exact StackMember.dotGeneral_plain_apply prec A B a b

/-- A product accumulated into the zero array, with the standard dimension numbers, at `(a, b)`: the same sum
    (`0 + s = s` holds for every extended real `s`). -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    matmul d prec A B (constant (F := Ideal) ⟨2, ![M, N]⟩ .f32 0x00000000#32) (ix2 a b)
      = ∑ c : Fin K, A (ix2 a c) * B (ix2 c b) := by
  rw [matmul_zero_eq_dotGeneral]
  exact dotGeneral_apply d hd prec A B a b

/-- The bit pattern of `-∞` in f32 denotes `⊥`. -/
theorem ofBits_neg_inf_f32 : Ideal.ofBits .f32 0xFF800000#32 = ⊥ := by simp [Ideal.ofBits, Ideal.ieee]

/-- The maximum over the last axis of an `a × b` array from `-∞`, at row `p`: the fold of `max` from `⊥` over the
    entries `(p, k)` of the row. -/
theorem rowMax_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0xFF800000#32 : BitVec 32) = FKind.maximumf.neutral .f32 hφ) (p : Fin a) :
    multiReduction .maximumf [(1 : Fin 2)] ⟨1, ![a]⟩ src 0xFF800000#32 h hφ hacc (ix1 p)
      = (Finset.univ : Finset (Fin b)).fold max ⊥ (fun k => src (ix2 p k)) := by
  rw [Ideal.multiReduction_maximumf_single src 0xFF800000#32 h hφ hacc (ix1 p)]
  show (Finset.univ : Finset (Fin b)).fold max (Ideal.ofBits .f32 0xFF800000#32) _ = _
  rw [ofBits_neg_inf_f32]
  refine congrArg (Finset.fold max ⊥ · Finset.univ) (funext fun k => ?_)
  exact congrArg src (funext fun ax => Fin.ext (by
    match ax with
    | ⟨0, _⟩ => rfl
    | ⟨1, _⟩ => rfl))

end Cert.LibPlain

end
-- ==== Proof.LibGemm.lean ====
/-
  The product of two matrices over the extended reals, and a tile of it.

  For `A` of `M × K` and `B` of `K × N` entries, `prod A B` has at `(r, c)` the entry `∑ k, A (r, k) * B (k, c)`.
  The sum is a finite sum in a commutative monoid, so no finiteness of the entries is asked: the extended reals add and
  multiply everywhere, and nothing here distributes, cancels, or reorders a product across a sum.

  Two readings meet at this one function.  The host's product with the standard dimension numbers (contract the left
  operand's columns with the right operand's rows) IS `prod`.  And a TILE of the product — `TM` rows by `TN`
  columns, computed from the `TM × K` rows of `A` and the `K × TN` columns of `B` it depends on, accumulated into
  a zero tile — is `prod A B` read at the tile's place: entry `(r, q)` of the tile only needs row `r` of the row
  block to be row `I 0` of `A` and column `q` of the column block to be column `I 1` of `B`.  A change of float
  format is the identity on extended reals, so the operands' formats do not matter.
-/
import proofs.«151542_j71408126263375_1_alg».proof.Proof.LibPlain
import Idealize.ShloMosaic.Lib.Pipeline.Value
import Idealize.ShloMosaic.Lib.ValueIdx

noncomputable section

namespace Cert.Gemm

open Idealize.ShloMosaic Idealize.ShloMosaic.ValueIdx

/-- The matrix product: at `(r, c)`, the sum over `k` of `A (r, k) * B (k, c)`. -/
def prod {M K N : ℕ} (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

/-- The product at an index. -/
theorem prod_apply {M K N : ℕ} (A : (⟨2, ![M, K]⟩ : Shape).Idx → EReal) (B : (⟨2, ![K, N]⟩ : Shape).Idx → EReal)
    (i : (⟨2, ![M, N]⟩ : Shape).Idx) : prod A B i = ∑ k : Fin K, A (ix2 (i 0) k) * B (ix2 k (i 1)) := rfl

/-- The host's product with the standard dimension numbers is `prod`, whatever the operands' float formats. -/
theorem host_eq_prod {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) :
    Host.dotGeneral d prec A B = prod A B := by
  funext i
  refine (congrArg (Host.dotGeneral d prec A B) (eq_ix2 i)).trans ?_
  exact Cert.LibPlain.dotGeneral_apply d hd prec A B (i 0) (i 1)

/-- A tile of the product.  `X0` is a block of `TM` rows and `X1` a block of `TN` columns; the tile's entry `y`
    is the product's entry `I` as soon as row `y 0` of `X0` is row `I 0` of `A` and column `y 1` of `X1` is
    column `I 1` of `B`.  (The two casts are casts of a shape to itself: the identity.) -/
theorem tile_apply {M K N TM TN : ℕ} {φ₁ φ₂ : FTy}
    (A : (⟨2, ![M, K]⟩ : Shape).Idx → EReal) (B : (⟨2, ![K, N]⟩ : Shape).Idx → EReal)
    (X0 : FVec Ideal ⟨2, ![TM, K]⟩ φ₁) (X1 : FVec Ideal ⟨2, ![K, TN]⟩ φ₂)
    (d : DotDims ⟨2, ![TM, K]⟩ ⟨2, ![K, TN]⟩ ⟨2, ![TM, TN]⟩) (hd : d = DotDims.plain TM K TN)
    (c0 : (⟨2, ![TM, K]⟩ : Shape).ShapeCasts ⟨2, ![TM, K]⟩) (c1 : (⟨2, ![K, TN]⟩ : Shape).ShapeCasts ⟨2, ![K, TN]⟩)
    (y : (⟨2, ![TM, TN]⟩ : Shape).Idx) (I : (⟨2, ![M, N]⟩ : Shape).Idx)
    (h0 : ∀ k : Fin K, X0 (ix2 (y 0) k) = A (ix2 (I 0) k))
    (h1 : ∀ k : Fin K, X1 (ix2 k (y 1)) = B (ix2 k (I 1))) :
    matmul d none (shapeCast ⟨2, ![TM, K]⟩ X0 c0) (shapeCast ⟨2, ![K, TN]⟩ X1 c1)
        (constant (F := Ideal) ⟨2, ![TM, TN]⟩ .f32 0x00000000#32) y
      = prod A B I := by
  rw [shapeCast_self, shapeCast_self]
  refine (congrArg (matmul d none X0 X1 (constant (F := Ideal) ⟨2, ![TM, TN]⟩ .f32 0x00000000#32)) (eq_ix2 y)).trans ?_
  refine (Cert.LibPlain.matmul_zero_apply d hd none X0 X1 (y 0) (y 1)).trans ?_
  rw [prod_apply]
  exact Finset.sum_congr rfl fun k _ => by rw [h0 k, h1 k]

end Cert.Gemm

end
-- ==== Proof.LibDenseLayer.lean ====
/-
  One dense layer of a message-passing network, as a function of whole arrays over the extended reals, and the two
  ways programs spell it.

  For a matrix `mean` of aggregated neighbour features and a matrix `xdst` of the destination nodes' own features
  (both `N × K`), two weight matrices `wl`, `wr` (`K × O`, already transposed) and a bias row `b` (`1 × O`),
  the layer's entry `(r, c)` is

      (∑ k, mean (r, k) · wl (k, c))  +  (∑ k, xdst (r, k) · wr (k, c))  +  b (0, c),

  and a layer with a positive part takes `max · 0` of it.  The zero is kept as the float word it is written with.
  Both sums are finite sums in a commutative monoid: nothing here needs an entry to be finite.

  A fused kernel adds the two products first and the bias last (`lin`, `linRelu`: its tiles are read with
  `Cert.Gemm.tile_apply`).  A plain host program adds the bias between the two products, each product a
  `dot_general` with the standard dimension numbers, the bias a row repeated down the rows, the zero of the positive part
  a word repeated over the array (`lin_eq_host`, `linRelu_eq_host`).  The two are the same array because addition of
  extended reals is commutative and associative (`add_right_comm`; a sum with `⊥` is `⊥` in either order) — the only
  law that separates them.
-/
import proofs.«151542_j71408126263375_1_alg».proof.Proof.LibGemm
import Idealize.ShloMosaic.PureOps.Ideal.Laws

noncomputable section

namespace Cert.Sage

open Idealize.ShloMosaic Idealize.ShloMosaic.ValueIdx

/-- The layer without the positive part: products first, bias last. -/
def lin {N K O : ℕ} (mean xdst : (⟨2, ![N, K]⟩ : Shape).Idx → EReal) (wl : (⟨2, ![K, O]⟩ : Shape).Idx → EReal)
    (b : (⟨2, ![1, O]⟩ : Shape).Idx → EReal) (wr : (⟨2, ![K, O]⟩ : Shape).Idx → EReal) :
    (⟨2, ![N, O]⟩ : Shape).Idx → EReal :=
  fun i => (Cert.Gemm.prod mean wl i + Cert.Gemm.prod xdst wr i) + b (ix2 0 (i 1))

/-- The layer followed by the positive part. -/
def linRelu {N K O : ℕ} (mean xdst : (⟨2, ![N, K]⟩ : Shape).Idx → EReal) (wl : (⟨2, ![K, O]⟩ : Shape).Idx → EReal)
    (b : (⟨2, ![1, O]⟩ : Shape).Idx → EReal) (wr : (⟨2, ![K, O]⟩ : Shape).Idx → EReal) :
    (⟨2, ![N, O]⟩ : Shape).Idx → EReal :=
  fun i => max (lin mean xdst wl b wr i) (Ideal.ofBits .f32 0x00000000#32)

theorem lin_apply {N K O : ℕ} (mean xdst : (⟨2, ![N, K]⟩ : Shape).Idx → EReal) (wl : (⟨2, ![K, O]⟩ : Shape).Idx → EReal)
    (b : (⟨2, ![1, O]⟩ : Shape).Idx → EReal) (wr : (⟨2, ![K, O]⟩ : Shape).Idx → EReal) (i : (⟨2, ![N, O]⟩ : Shape).Idx) :
    lin mean xdst wl b wr i = (Cert.Gemm.prod mean wl i + Cert.Gemm.prod xdst wr i) + b (ix2 0 (i 1)) := rfl

theorem linRelu_apply {N K O : ℕ} (mean xdst : (⟨2, ![N, K]⟩ : Shape).Idx → EReal) (wl : (⟨2, ![K, O]⟩ : Shape).Idx → EReal)
    (b : (⟨2, ![1, O]⟩ : Shape).Idx → EReal) (wr : (⟨2, ![K, O]⟩ : Shape).Idx → EReal) (i : (⟨2, ![N, O]⟩ : Shape).Idx) :
    linRelu mean xdst wl b wr i = max (lin mean xdst wl b wr i) (Ideal.ofBits .f32 0x00000000#32) := rfl

/-- The other order of the three summands: (first product + bias) + second product. -/
theorem lin_eq_biasFirst {N K O : ℕ} (mean xdst : (⟨2, ![N, K]⟩ : Shape).Idx → EReal) (wl : (⟨2, ![K, O]⟩ : Shape).Idx → EReal)
    (b : (⟨2, ![1, O]⟩ : Shape).Idx → EReal) (wr : (⟨2, ![K, O]⟩ : Shape).Idx → EReal) (i : (⟨2, ![N, O]⟩ : Shape).Idx) :
    lin mean xdst wl b wr i = (Cert.Gemm.prod mean wl i + b (ix2 0 (i 1))) + Cert.Gemm.prod xdst wr i := by
  rw [lin_apply]; exact add_right_comm _ _ _

/-- The layer with the bias added between the two products, as host operations: products-first is the same array.
    `br` is the bias row `bk` repeated down the rows (`hb`). -/
theorem lin_eq_host {N K O : ℕ} (d : DotDims ⟨2, ![N, K]⟩ ⟨2, ![K, O]⟩ ⟨2, ![N, O]⟩) (hd : d = DotDims.plain N K O)
    (mean xdst : FVec Ideal ⟨2, ![N, K]⟩ .f32) (wl wr : FVec Ideal ⟨2, ![K, O]⟩ .f32)
    (bk : FVec Ideal ⟨2, ![1, O]⟩ .f32) (br : FVec Ideal ⟨2, ![N, O]⟩ .f32)
    (hb : ∀ i, br i = bk (ix2 0 (i 1))) :
    lin mean xdst wl bk wr
      = addf (addf (Host.dotGeneral d none mean wl) br) (Host.dotGeneral d none xdst wr) := by
  funext i
  rw [lin_eq_biasFirst, ← Cert.Gemm.host_eq_prod d hd none mean wl, ← Cert.Gemm.host_eq_prod d hd none xdst wr, ← hb i]
  rfl

/-- The same with the positive part: `z` is the zero word repeated over the array (`hz`). -/
theorem linRelu_eq_host {N K O : ℕ} (d : DotDims ⟨2, ![N, K]⟩ ⟨2, ![K, O]⟩ ⟨2, ![N, O]⟩) (hd : d = DotDims.plain N K O)
    (mean xdst : FVec Ideal ⟨2, ![N, K]⟩ .f32) (wl wr : FVec Ideal ⟨2, ![K, O]⟩ .f32)
    (bk : FVec Ideal ⟨2, ![1, O]⟩ .f32) (br z : FVec Ideal ⟨2, ![N, O]⟩ .f32)
    (hb : ∀ i, br i = bk (ix2 0 (i 1))) (hz : ∀ i, z i = Ideal.ofBits .f32 0x00000000#32) :
    linRelu mean xdst wl bk wr
      = maximumf (addf (addf (Host.dotGeneral d none mean wl) br) (Host.dotGeneral d none xdst wr)) z := by
  funext i
  rw [linRelu_apply, lin_eq_host d hd mean xdst wl wr bk br hb, ← hz i]
  rfl

end Cert.Sage

end
-- ==== Proof.BridgeRef.lean ====
/-
  The reference's dense layers, each as the layer function of its own earlier stages.

  In the reference a layer is: the product of the aggregated features with one transposed weight matrix, plus the
  bias repeated down the rows, plus the product of the destination features with the other transposed weight matrix —
  and, in the first of the two layers, the maximum with zero.  Each of these is the layer function `Cert.Sage.lin` /
  `linRelu` (products first, bias last) of the same matrices, by commutativity and associativity of the sum; the bias
  is read at an entry on both sides as the bias vector's entry at the column.
-/
import proofs.«151542_j71408126263375_1_alg».proof.Proof.Gen.ReferenceIdeal.Read
import proofs.«151542_j71408126263375_1_alg».proof.Proof.LibDenseLayer
import Idealize.ShloMosaic.Lib.ValueLayout

noncomputable section

namespace Cert.ReferenceIdeal.Layers

open Idealize.ShloMosaic Idealize.ShloMosaic.ValueIdx
open Cert.ReferenceIdeal Cert.ReferenceIdeal.Read

/-- The bias repeated down the rows, read at an entry: the vector's entry at the column, which is also what the
    vector reshaped to one row holds at row 0 of that column. -/
theorem bias_u1 (xb : (⟨S256, .f32⟩ : BufTy).Contents (Elt Ideal)) (h : S256.ShapeCasts S1x256) (i : S50000x256.Idx) :
    val_main_v26 (F := Ideal) xb i = shapeCast S1x256 xb h (ix2 (0 : Fin 1) (i 1)) := by
  rw [val_main_v26_apply, val_main_v25_apply]
  refine Eq.trans ?_ (ValueIdx.shapeCast_a_1a_apply (a := 256) xb h (0 : Fin 1) (i 1)).symm
  exact congrArg xb (funext fun a => Fin.ext (by
    match a with
    | ⟨0, _⟩ => rfl))

/-- The bias repeated down the rows, read at an entry: the vector's entry at the column, which is also what the
    vector reshaped to one row holds at row 0 of that column. -/
theorem bias_p1 (xb : (⟨S256, .f32⟩ : BufTy).Contents (Elt Ideal)) (h : S256.ShapeCasts S1x256) (i : S50000x256.Idx) :
    val_main_v54 (F := Ideal) xb i = shapeCast S1x256 xb h (ix2 (0 : Fin 1) (i 1)) := by
  rw [val_main_v54_apply, val_main_v53_apply]
  refine Eq.trans ?_ (ValueIdx.shapeCast_a_1a_apply (a := 256) xb h (0 : Fin 1) (i 1)).symm
  exact congrArg xb (funext fun a => Fin.ext (by
    match a with
    | ⟨0, _⟩ => rfl))

/-- The bias repeated down the rows, read at an entry: the vector's entry at the column, which is also what the
    vector reshaped to one row holds at row 0 of that column. -/
theorem bias_u2 (xb : (⟨S64, .f32⟩ : BufTy).Contents (Elt Ideal)) (h : S64.ShapeCasts S1x64) (i : S50000x64.Idx) :
    val_main_v82 (F := Ideal) xb i = shapeCast S1x64 xb h (ix2 (0 : Fin 1) (i 1)) := by
  rw [val_main_v82_apply, val_main_v81_apply]
  refine Eq.trans ?_ (ValueIdx.shapeCast_a_1a_apply (a := 64) xb h (0 : Fin 1) (i 1)).symm
  exact congrArg xb (funext fun a => Fin.ext (by
    match a with
    | ⟨0, _⟩ => rfl))

/-- The bias repeated down the rows, read at an entry: the vector's entry at the column, which is also what the
    vector reshaped to one row holds at row 0 of that column. -/
theorem bias_p2 (xb : (⟨S64, .f32⟩ : BufTy).Contents (Elt Ideal)) (h : S64.ShapeCasts S1x64) (i : S50000x64.Idx) :
    val_main_v109 (F := Ideal) xb i = shapeCast S1x64 xb h (ix2 (0 : Fin 1) (i 1)) := by
  rw [val_main_v109_apply, val_main_v108_apply]
  refine Eq.trans ?_ (ValueIdx.shapeCast_a_1a_apply (a := 64) xb h (0 : Fin 1) (i 1)).symm
  exact congrArg xb (funext fun a => Fin.ext (by
    match a with
    | ⟨0, _⟩ => rfl))

/-- The zero the first positive part is taken against, at an entry. -/
theorem zero_u1 (i : S50000x256.Idx) : val_main_call0_v0 (F := Ideal) i = Ideal.ofBits .f32 0x00000000#32 :=
  (val_main_call0_v0_apply i).trans (val_main_call0_cst_apply _)

/-- The zero the second positive part is taken against, at an entry. -/
theorem zero_p1 (i : S50000x256.Idx) : val_main_call1_v0 (F := Ideal) i = Ideal.ofBits .f32 0x00000000#32 :=
  (val_main_call1_v0_apply i).trans (val_main_call1_cst_apply _)

/-- First layer, user side. -/
theorem layer_u1 (x0 x1 : (⟨S50000x128, .f32⟩ : BufTy).Contents (Elt Ideal)) (x2 : (⟨S2x800000, .i32⟩ : BufTy).Contents (Elt Ideal)) (x3 : (⟨S256x128, .f32⟩ : BufTy).Contents (Elt Ideal)) (x4 : (⟨S256, .f32⟩ : BufTy).Contents (Elt Ideal)) (x5 : (⟨S256x128, .f32⟩ : BufTy).Contents (Elt Ideal))
    (h : S256.ShapeCasts S1x256) :
    Cert.Sage.linRelu (val_main_v22 (F := Ideal) x0 x2) x1 (val_main_v23 (F := Ideal) x3) (shapeCast S1x256 x4 h) (val_main_v28 (F := Ideal) x5)
      = val_main_v31 (F := Ideal) x0 x1 x2 x3 x4 x5 := by
  unfold val_main_v31 val_main_v30 val_main_v27 val_main_v24 val_main_v29
  exact Cert.Sage.linRelu_eq_host dot_S50000x128_S128x256_S50000x256_1_0_0_1_n_n rfl _ _ _ _ _ _ _
    (fun i => bias_u1 x4 h i) zero_u1

/-- First layer, product side. -/
theorem layer_p1 (x0 x1 : (⟨S50000x128, .f32⟩ : BufTy).Contents (Elt Ideal)) (x2 : (⟨S2x800000, .i32⟩ : BufTy).Contents (Elt Ideal)) (x6 : (⟨S256x128, .f32⟩ : BufTy).Contents (Elt Ideal)) (x7 : (⟨S256, .f32⟩ : BufTy).Contents (Elt Ideal)) (x8 : (⟨S256x128, .f32⟩ : BufTy).Contents (Elt Ideal))
    (h : S256.ShapeCasts S1x256) :
    Cert.Sage.linRelu (val_main_v50 (F := Ideal) x1 x2) x0 (val_main_v51 (F := Ideal) x6) (shapeCast S1x256 x7 h) (val_main_v56 (F := Ideal) x8)
      = val_main_v59 (F := Ideal) x0 x1 x2 x6 x7 x8 := by
  unfold val_main_v59 val_main_v58 val_main_v55 val_main_v52 val_main_v57
  exact Cert.Sage.linRelu_eq_host dot_S50000x128_S128x256_S50000x256_1_0_0_1_n_n rfl _ _ _ _ _ _ _
    (fun i => bias_p1 x7 h i) zero_p1

/-- Second layer, user side. -/
theorem layer_u2 (x0 x1 : (⟨S50000x128, .f32⟩ : BufTy).Contents (Elt Ideal)) (x2 : (⟨S2x800000, .i32⟩ : BufTy).Contents (Elt Ideal)) (x3 : (⟨S256x128, .f32⟩ : BufTy).Contents (Elt Ideal)) (x4 : (⟨S256, .f32⟩ : BufTy).Contents (Elt Ideal)) (x5 x6 : (⟨S256x128, .f32⟩ : BufTy).Contents (Elt Ideal))
    (x7 : (⟨S256, .f32⟩ : BufTy).Contents (Elt Ideal)) (x8 : (⟨S256x128, .f32⟩ : BufTy).Contents (Elt Ideal)) (x9 : (⟨S64x256, .f32⟩ : BufTy).Contents (Elt Ideal)) (x10 : (⟨S64, .f32⟩ : BufTy).Contents (Elt Ideal)) (x11 : (⟨S64x256, .f32⟩ : BufTy).Contents (Elt Ideal))
    (h : S64.ShapeCasts S1x64) :
    Cert.Sage.lin (val_main_v78 (F := Ideal) x0 x1 x2 x3 x4 x5) (val_main_v59 (F := Ideal) x0 x1 x2 x6 x7 x8)
        (val_main_v79 (F := Ideal) x9) (shapeCast S1x64 x10 h) (val_main_v84 (F := Ideal) x11)
      = val_main_v86 (F := Ideal) x0 x1 x2 x3 x4 x5 x6 x7 x8 x9 x10 x11 := by
  unfold val_main_v86 val_main_v83 val_main_v80 val_main_v85
  exact Cert.Sage.lin_eq_host dot_S50000x256_S256x64_S50000x64_1_0_0_1_n_n rfl _ _ _ _ _ _
    (fun i => bias_u2 x10 h i)

/-- Second layer, product side. -/
theorem layer_p2 (x0 x1 : (⟨S50000x128, .f32⟩ : BufTy).Contents (Elt Ideal)) (x2 : (⟨S2x800000, .i32⟩ : BufTy).Contents (Elt Ideal)) (x3 : (⟨S256x128, .f32⟩ : BufTy).Contents (Elt Ideal)) (x4 : (⟨S256, .f32⟩ : BufTy).Contents (Elt Ideal)) (x5 x6 : (⟨S256x128, .f32⟩ : BufTy).Contents (Elt Ideal))
    (x7 : (⟨S256, .f32⟩ : BufTy).Contents (Elt Ideal)) (x8 : (⟨S256x128, .f32⟩ : BufTy).Contents (Elt Ideal)) (x12 : (⟨S64x256, .f32⟩ : BufTy).Contents (Elt Ideal)) (x13 : (⟨S64, .f32⟩ : BufTy).Contents (Elt Ideal)) (x14 : (⟨S64x256, .f32⟩ : BufTy).Contents (Elt Ideal))
    (h : S64.ShapeCasts S1x64) :
    Cert.Sage.lin (val_main_v105 (F := Ideal) x0 x1 x2 x6 x7 x8) (val_main_v31 (F := Ideal) x0 x1 x2 x3 x4 x5)
        (val_main_v106 (F := Ideal) x12) (shapeCast S1x64 x13 h) (val_main_v111 (F := Ideal) x14)
      = val_main_v113 (F := Ideal) x0 x1 x2 x3 x4 x5 x6 x7 x8 x12 x13 x14 := by
  unfold val_main_v113 val_main_v110 val_main_v107 val_main_v112
  exact Cert.Sage.lin_eq_host dot_S50000x256_S256x64_S50000x64_1_0_0_1_n_n rfl _ _ _ _ _ _
    (fun i => bias_p2 x13 h i)

end Cert.ReferenceIdeal.Layers

end
-- ==== Proof.ChainB.lean ====
/-
  The two results of the idealized kernel, in closed form.

  Walking the boundaries forward: the first stretch of host operations leaves the user-side aggregate, which the
  first kernel turns into the first layer's user-side output; the second stretch and kernel do the same on the
  product side; the third stretch aggregates the first output again and the third kernel, fed that aggregate and the
  second output, writes the first result; the fourth stretch and kernel, with the roles exchanged, write the second
  result.  At every step the kernel's output array is the dense-layer function of the arrays it was given (one
  hypothesis per kernel below: its row tiles cover the rows once, and a tile's entry is the layer's entry), and that
  function of the reference's stages is the reference's next stage.  So each result is the reference's stage for it,
  as a function of the fifteen arguments.
-/
import proofs.«151542_j71408126263375_1_alg».proof.Proof.ChainS
import proofs.«151542_j71408126263375_1_alg».proof.Proof.BridgeRef

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- What is assumed of kernel `p`: whatever its operand arrays hold when it is entered, its output array ends at the
    dense-layer function of them (with the positive part for the first two kernels). -/
structure Layers : Prop where
  k0 : ∀ (V : (c : Dev nD) → (b : Ref sig .tc) → Buf (Elt Ideal) ((c : Thread nD τ).loc b)) (c : Dev nD),
    (dat0 (F := Ideal) V c).arrAt 5 cfg0.N = Cert.Sage.linRelu (V c main_v22) (V c main_arg1) (V c main_v23) (V c main_v25) (V c main_v24)
  k1 : ∀ (V : (c : Dev nD) → (b : Ref sig .tc) → Buf (Elt Ideal) ((c : Thread nD τ).loc b)) (c : Dev nD),
    (dat1 (F := Ideal) V c).arrAt 5 cfg1.N = Cert.Sage.linRelu (V c main_v45) (V c main_arg0) (V c main_v46) (V c main_v48) (V c main_v47)
  k2 : ∀ (V : (c : Dev nD) → (b : Ref sig .tc) → Buf (Elt Ideal) ((c : Thread nD τ).loc b)) (c : Dev nD),
    (dat2 (F := Ideal) V c).arrAt 5 cfg2.N = Cert.Sage.lin (V c main_v68) (V c main_v49) (V c main_v69) (V c main_v71) (V c main_v70)
  k3 : ∀ (V : (c : Dev nD) → (b : Ref sig .tc) → Buf (Elt Ideal) ((c : Thread nD τ).loc b)) (c : Dev nD),
    (dat3 (F := Ideal) V c).arrAt 5 cfg3.N = Cert.Sage.lin (V c main_v91) (V c main_v26) (V c main_v92) (V c main_v94) (V c main_v93)

variable (H : Layers)
include H

/-- The first layer's user-side output, as the first kernel leaves it. -/
theorem out_u1 : W2 m ρ c (Proc.devRef .tc main_v26) = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ((H.k0 (V1 m ρ) c).trans ?_)
  show Cert.Sage.linRelu (W1 m ρ c (Proc.devRef .tc main_v22)) (W1 m ρ c (Proc.devRef .tc main_arg1)) (W1 m ρ c (Proc.devRef .tc main_v23)) (W1 m ρ c (Proc.devRef .tc main_v25)) (W1 m ρ c (Proc.devRef .tc main_v24)) = _
  rw [s0_v22 m ρ c, w1_arg1 m ρ c, s0_v23 m ρ c, s0_v25 m ρ c, s0_v24 m ρ c]
  exact Cert.ReferenceIdeal.Layers.layer_u1 _ _ _ _ _ _ _

/-- The first layer's product-side output, as the second kernel leaves it. -/
theorem out_p1 : W4 m ρ c (Proc.devRef .tc main_v49) = Cert.ReferenceIdeal.Read.val_main_v59 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) := by
  refine (W4_arr m ρ c 5).trans ((H.k1 (V3 m ρ) c).trans ?_)
  show Cert.Sage.linRelu (W3 m ρ c (Proc.devRef .tc main_v45)) (W3 m ρ c (Proc.devRef .tc main_arg0)) (W3 m ρ c (Proc.devRef .tc main_v46)) (W3 m ρ c (Proc.devRef .tc main_v48)) (W3 m ρ c (Proc.devRef .tc main_v47)) = _
  rw [s1_v45 m ρ c, w3_arg0 m ρ c, s1_v46 m ρ c, s1_v48 m ρ c, s1_v47 m ρ c]
  exact Cert.ReferenceIdeal.Layers.layer_p1 _ _ _ _ _ _ _

/-- The first output is still in place when the third stretch reads it. -/
theorem u1_at4 : W4 m ρ c (Proc.devRef .tc main_v26) = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (t4_v26 m ρ c).trans ((t3_v26 m ρ c).trans (out_u1 m ρ c H))

/-- The first result, as the third kernel leaves it. -/
theorem out_u2 : W6 m ρ c (Proc.devRef .tc main_v72) = Cert.ReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((H.k2 (V5 m ρ) c).trans ?_)
  show Cert.Sage.lin (W5 m ρ c (Proc.devRef .tc main_v68)) (W5 m ρ c (Proc.devRef .tc main_v49)) (W5 m ρ c (Proc.devRef .tc main_v69)) (W5 m ρ c (Proc.devRef .tc main_v71)) (W5 m ρ c (Proc.devRef .tc main_v70)) = _
  rw [s2_v68 m ρ c (u1_at4 m ρ c H), (t5_v49 m ρ c).trans (out_p1 m ρ c H), s2_v69 m ρ c, s2_v71 m ρ c, s2_v70 m ρ c]
  exact Cert.ReferenceIdeal.Layers.layer_u2 _ _ _ _ _ _ _ _ _ _ _ _ _

/-- The second output is still in place when the fourth stretch reads it. -/
theorem p1_at6 : W6 m ρ c (Proc.devRef .tc main_v49) = Cert.ReferenceIdeal.Read.val_main_v59 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) :=
  (t6_v49 m ρ c).trans ((t5_v49 m ρ c).trans (out_p1 m ρ c H))

/-- The first output is still in place when the fourth kernel reads it. -/
theorem u1_at7 : W7 m ρ c (Proc.devRef .tc main_v26) = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (t7_v26 m ρ c).trans ((t6_v26 m ρ c).trans ((t5_v26 m ρ c).trans (u1_at4 m ρ c H)))

/-- The second result, as the fourth kernel leaves it. -/
theorem out_p2 : W8 m ρ c (Proc.devRef .tc main_v95) = Cert.ReferenceIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) := by
  refine (W8_arr m ρ c 5).trans ((H.k3 (V7 m ρ) c).trans ?_)
  show Cert.Sage.lin (W7 m ρ c (Proc.devRef .tc main_v91)) (W7 m ρ c (Proc.devRef .tc main_v26)) (W7 m ρ c (Proc.devRef .tc main_v92)) (W7 m ρ c (Proc.devRef .tc main_v94)) (W7 m ρ c (Proc.devRef .tc main_v93)) = _
  rw [s3_v91 m ρ c (p1_at6 m ρ c H), u1_at7 m ρ c H, s3_v92 m ρ c, s3_v94 m ρ c, s3_v93 m ρ c]
  exact Cert.ReferenceIdeal.Layers.layer_p2 _ _ _ _ _ _ _ _ _ _ _ _ _

/-- The first result is still in place at the end. -/
theorem res_u2 : W8 m ρ c (Proc.devRef .tc main_v72) = Cert.ReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (t8_v72 m ρ c).trans ((t7_v72 m ρ c).trans (out_u2 m ρ c H))

end Cert.KernelIdeal.Chain

end
-- ==== Proof.Claims.lean ====
/-
  The five claims.

  The three frames: the two kernel programs by their generated frame certificates, the reference by its generated run
  with the results dropped.  The idealization rewrote nothing, so `preserves` is `True`.

  The value claim: from memories that agree on the fifteen arguments, the idealized kernel ends with its two results at
  the reference's two result stages of ITS arguments (the boundary walk of `ChainB`), and the reference ends with its
  results at the same stages of its own arguments (its generated run); the arguments agree, so the results are equal,
  element by element, as extended reals.  Nothing here opens the precondition: the one law that separates the programs,
  the order of a three-term sum, holds for every extended real.
-/
import proofs.«151542_j71408126263375_1_alg».proof.Defs
import proofs.«151542_j71408126263375_1_alg».proof.Proof.Gen.Pre_finite_inputs
import proofs.«151542_j71408126263375_1_alg».proof.Proof.Gen.Kernel.Frame
import proofs.«151542_j71408126263375_1_alg».proof.Proof.Gen.KernelIdeal.Frame
import proofs.«151542_j71408126263375_1_alg».proof.Proof.Gen.ReferenceIdeal.Run
import proofs.«151542_j71408126263375_1_alg».proof.Proof.Gen.ReferenceIdeal.Read
import proofs.«151542_j71408126263375_1_alg».proof.Proof.KRun
import proofs.«151542_j71408126263375_1_alg».proof.Proof.ChainB

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Given that each kernel's output array is the dense-layer function of its operand arrays (`H`), the two programs
    end with equal results. -/
theorem algebraic (H : Cert.KernelIdeal.Chain.Layers) : Cert.algebraic_KernelIdeal_ReferenceIdeal := by
  intro m ρ m' ρ' _ hagree
  refine ⟨fun c => Cert.ReferenceIdeal.Read.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v113 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Chain.res_u2 m ρ c H),
        (h c).2.1.trans (Cert.KernelIdeal.Chain.out_p2 m ρ c H), (h c).2.2⟩)
      (Cert.KernelIdeal.Run.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14⟩ := hagree c
      rw [Cert.ReferenceIdeal.Read.val_main_v86_eq, h0, h1, h2, h3, h4, h5, h6, h7, h8, h9, h10, h11]
    · obtain ⟨h0, h1, h2, h3, h4, h5, h6, h7, h8, h9, h10, h11, h12, h13, h14⟩ := hagree c
      rw [Cert.ReferenceIdeal.Read.val_main_v113_eq, h0, h1, h2, h3, h4, h5, h6, h7, h8, h12, h13, h14]

end Cert.Proof.Claims

end
-- ==== Proof.Region0.lean ====
/-
  The first dense layer (the first of the program's four tiled products), as one function of whole arrays.

  The layer takes a matrix of aggregated neighbour features and a matrix of the nodes' own features, both
  50000 × 128, two 128 × 256 weight matrices and a 1 × 256 bias row, and produces the 50000 × 256 matrix whose
  entry (r, c) is the positive part of

      (∑ k, mean (r, k) · wl (k, c))  +  (∑ k, xdst (r, k) · wr (k, c))  +  b (0, c).

  The program computes it in 25 steps.  Step t holds rows 2000·t … 2000·t + 1999 of the two feature matrices,
  the two weight matrices and the bias row whole, and produces rows 2000·t … 2000·t + 1999 of the result.
  Entry (r, c) of that tile depends on row r of each row block — which is row 2000·t + r of the feature matrix —,
  on column c of each weight matrix and on entry c of the bias row: so the tile's entry (r, c) IS the layer's
  entry (2000·t + r, c), and nothing else of the inputs enters it.  Both products are accumulated from zero, and
  rounding the operands to a narrower float format on the way into the product is the identity on extended reals.

  Every row index r below 50000 lies in exactly one tile, the one of step r / 2000, since
  2000 · (r / 2000) ≤ r < 2000 · (r / 2000) + 2000 and r / 2000 < 25; the tiles take all 256 columns.  So the
  25 tiles written back fill the result exactly, and the array the steps leave is the layer of the arrays they found.
-/
import proofs.«151542_j71408126263375_1_alg».proof.Proof.Gen.KernelIdeal.Frame
import proofs.«151542_j71408126263375_1_alg».proof.Proof.LibDenseLayer
import Idealize.ShloMosaic.Lib.Pipeline.Value
import Idealize.ShloMosaic.Lib.ValueLayout

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## One entry of a tile -/

/-- Entry y of the tile the body computes from a block of 2000 rows of each feature matrix (x0, x1), the two
    weight matrices (x2, x4) and the bias row (x3) is the layer's entry I, as soon as row y 0 of each row block
    is row I 0 of its matrix, column y 1 of each weight block is column I 1 of its matrix, and the bias block at
    column y 1 is the bias row at column I 1. -/
theorem tile_entry
    (A0 A1 : S50000x128.Idx → EReal) (W2 : S128x256.Idx → EReal) (B3 : S1x256.Idx → EReal) (W4 : S128x256.Idx → EReal)
    (x0 x1 : Vec Ideal S2000x128 .f32) (x2 : Vec Ideal S128x256 .f32) (x3 : Vec Ideal S1x256 .f32)
    (x4 : Vec Ideal S128x256 .f32) (y : S2000x256.Idx) (I : S50000x256.Idx)
    (h0 : ∀ k : Fin 128, x0 (ix2 (y 0) k) = A0 (ix2 (I 0) k))
    (h1 : ∀ k : Fin 128, x1 (ix2 (y 0) k) = A1 (ix2 (I 0) k))
    (h2 : ∀ k : Fin 128, x2 (ix2 k (y 1)) = W2 (ix2 k (I 1)))
    (h3 : x3 (ix2 (0 : Fin 1) (y 1)) = B3 (ix2 (0 : Fin 1) (I 1)))
    (h4 : ∀ k : Fin 128, x4 (ix2 k (y 1)) = W4 (ix2 k (I 1))) :
    k0_pay1 (F := Ideal) x0 x1 x2 x4 x3 y = Cert.Sage.linRelu A0 A1 W2 B3 W4 I := by
  rw [Cert.Sage.linRelu_apply, Cert.Sage.lin_apply]
  unfold k0_pay1
  refine congrArg₂ max (congrArg₂ (· + ·) (congrArg₂ (· + ·) ?_ ?_) ?_) rfl
  · -- the first product: rows of x0 against columns of x2
    exact Cert.Gemm.tile_apply (φ₁ := .bf16) (φ₂ := .bf16) A0 W2 x0 x2
      dot_S2000x128_S128x256_S2000x256_1_0_0_1_n_n rfl _ _ y I h0 h2
  · -- the second product: rows of x1 (which reach the product uncast) against columns of x4
    have e := Cert.Gemm.tile_apply (φ₁ := .bf16) (φ₂ := .bf16) A1 W4 x1 x4
      dot_S2000x128_S128x256_S2000x256_1_0_0_1_n_n rfl Gen.shapeCasts_S2000x128_S2000x128 Gen.shapeCasts_S128x256_S128x256 y I h1 h4
    rw [shapeCast_self x1] at e
    exact e
  · -- the bias: one row, read at the entry's column
    refine (congrArg (broadcastTo S2000x256 (shapeCast S1x256 x3 _) _) (eq_ix2 y)).trans ?_
    refine (broadcastTo_1b_ab_apply _ _ (y 0) (y 1)).trans ?_
    rw [shapeCast_self]
    exact h3

/-! ## The blocks a step holds -/

theorem zeros : (![0, 0] : Fin 2 → Nat) = fun _ => 0 := funext fun a => by fin_cases a <;> rfl

/-- The block indices of the six windows at step t: the two row blocks and the result tile are at block row t,
    block column 0; the weight matrices and the bias row are their one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Where the tile's entry y sits in the result: at row 2000·t + (its row), at its own column. -/
theorem tile_row (t : Fin cfg0.N) (y : S2000x256.Idx) :
    ((((cfg0.win 5).blk t).view.emb y) 0).val = t.val * 2000 + (y 0).val := by
  show win0_5.index t (0 : Fin 2) * 2000 + 1 * (y 0).val = _
  rw [(block_index t).2.2.2.2.2.2.2.2.2.2.1]; omega

theorem tile_col (t : Fin cfg0.N) (y : S2000x256.Idx) :
    ((((cfg0.win 5).blk t).view.emb y) 1).val = (y 1).val := by
  show win0_5.index t (1 : Fin 2) * 256 + 1 * (y 1).val = _
  rw [(block_index t).2.2.2.2.2.2.2.2.2.2.2]; omega

/-- Row r of the first feature block at step t is row 2000·t + r of the first feature matrix. -/
theorem rows0 (c : Dev nD) (t : Fin cfg0.N) (r : Fin 2000) (k : Fin 128) (R : Fin 50000)
    (hR : R.val = t.val * 2000 + r.val) :
    (iblk0 (F := Ideal) V c 0 t : Vec Ideal S2000x128 .f32) (ix2 r k)
      = (V c (Pipeline.arrRef spec0 0) : S50000x128.Idx → EReal) (ix2 R k) := by
  show V c (Pipeline.arrRef spec0 0) (((cfg0.win 0).blk t).view.emb (ix2 r k)) = _
  refine congrArg (V c (Pipeline.arrRef spec0 0)) (funext fun a => Fin.ext ?_)
  match a with
  | ⟨0, _⟩ => show win0_0.index t (0 : Fin 2) * 2000 + 1 * r.val = R.val; rw [(block_index t).1, hR]; omega
  | ⟨1, _⟩ => show win0_0.index t (1 : Fin 2) * 128 + 1 * k.val = k.val; rw [(block_index t).2.1]; omega

/-- Row r of the second feature block at step t is row 2000·t + r of the second feature matrix. -/
theorem rows1 (c : Dev nD) (t : Fin cfg0.N) (r : Fin 2000) (k : Fin 128) (R : Fin 50000)
    (hR : R.val = t.val * 2000 + r.val) :
    (iblk0 (F := Ideal) V c 1 t : Vec Ideal S2000x128 .f32) (ix2 r k)
      = (V c (Pipeline.arrRef spec0 1) : S50000x128.Idx → EReal) (ix2 R k) := by
  show V c (Pipeline.arrRef spec0 1) (((cfg0.win 1).blk t).view.emb (ix2 r k)) = _
  refine congrArg (V c (Pipeline.arrRef spec0 1)) (funext fun a => Fin.ext ?_)
  match a with
  | ⟨0, _⟩ => show win0_1.index t (0 : Fin 2) * 2000 + 1 * r.val = R.val; rw [(block_index t).2.2.1, hR]; omega
  | ⟨1, _⟩ => show win0_1.index t (1 : Fin 2) * 128 + 1 * k.val = k.val; rw [(block_index t).2.2.2.1]; omega

/-- The first weight block at every step is the first weight matrix. -/
theorem whole2 (c : Dev nD) (t : Fin cfg0.N) (k : Fin 128) (q Q : Fin 256) (hQ : Q.val = q.val) :
    (iblk0 (F := Ideal) V c 2 t : Vec Ideal S128x256 .f32) (ix2 k q)
      = (V c (Pipeline.arrRef spec0 2) : S128x256.Idx → EReal) (ix2 k Q) := by
  show V c (Pipeline.arrRef spec0 2) (((cfg0.win 2).blk t).view.emb (ix2 k q)) = _
  refine congrArg (V c (Pipeline.arrRef spec0 2)) (funext fun a => Fin.ext ?_)
  match a with
  | ⟨0, _⟩ => show win0_2.index t (0 : Fin 2) * 128 + 1 * k.val = k.val; rw [(block_index t).2.2.2.2.1]; omega
  | ⟨1, _⟩ => show win0_2.index t (1 : Fin 2) * 256 + 1 * q.val = Q.val; rw [(block_index t).2.2.2.2.2.1, hQ]; omega

/-- The bias block at every step is the bias row. -/
theorem whole3 (c : Dev nD) (t : Fin cfg0.N) (q Q : Fin 256) (hQ : Q.val = q.val) :
    (iblk0 (F := Ideal) V c 3 t : Vec Ideal S1x256 .f32) (ix2 (0 : Fin 1) q)
      = (V c (Pipeline.arrRef spec0 3) : S1x256.Idx → EReal) (ix2 (0 : Fin 1) Q) := by
  show V c (Pipeline.arrRef spec0 3) (((cfg0.win 3).blk t).view.emb (ix2 (0 : Fin 1) q)) = _
  refine congrArg (V c (Pipeline.arrRef spec0 3)) (funext fun a => Fin.ext ?_)
  match a with
  | ⟨0, _⟩ => show win0_3.index t (0 : Fin 2) * 1 + 1 * 0 = 0; rw [(block_index t).2.2.2.2.2.2.1]
  | ⟨1, _⟩ => show win0_3.index t (1 : Fin 2) * 256 + 1 * q.val = Q.val; rw [(block_index t).2.2.2.2.2.2.2.1, hQ]; omega

/-- The second weight block at every step is the second weight matrix. -/
theorem whole4 (c : Dev nD) (t : Fin cfg0.N) (k : Fin 128) (q Q : Fin 256) (hQ : Q.val = q.val) :
    (iblk0 (F := Ideal) V c 4 t : Vec Ideal S128x256 .f32) (ix2 k q)
      = (V c (Pipeline.arrRef spec0 4) : S128x256.Idx → EReal) (ix2 k Q) := by
  show V c (Pipeline.arrRef spec0 4) (((cfg0.win 4).blk t).view.emb (ix2 k q)) = _
  refine congrArg (V c (Pipeline.arrRef spec0 4)) (funext fun a => Fin.ext ?_)
  match a with
  | ⟨0, _⟩ => show win0_4.index t (0 : Fin 2) * 128 + 1 * k.val = k.val; rw [(block_index t).2.2.2.2.2.2.2.2.1]; omega
  | ⟨1, _⟩ => show win0_4.index t (1 : Fin 2) * 256 + 1 * q.val = Q.val; rw [(block_index t).2.2.2.2.2.2.2.2.2.1, hQ]; omega

/-- What step t writes back is tile t of the layer of the arrays the steps found. -/
theorem flushed_eq (c : Dev nD) (t : Fin cfg0.N) :
    (dat0 (F := Ideal) V c).flushed 5 t
      = ((cfg0.win 5).blk t).view.read (Elt Ideal)
          (Cert.Sage.linRelu (V c (Pipeline.arrRef spec0 0)) (V c (Pipeline.arrRef spec0 1)) (V c (Pipeline.arrRef spec0 2))
            (V c (Pipeline.arrRef spec0 3)) (V c (Pipeline.arrRef spec0 4))) := by
  show (cfg0.win 5).cut (grid0.coords t) ((dat0 (F := Ideal) V c).after 5 t) = _
  rw [after0_5]
  unfold out0_5
  rw [View.canon_unit_zero zeros]
  simp only [View.ld_unit_zero (S := S2000x128) zeros, View.ld_unit_zero (S := S128x256) zeros,
    View.ld_unit_zero (S := S1x256) zeros]
  funext y
  show k0_pay1 (F := Ideal) (iblk0 V c 0 t) (iblk0 V c 1 t) (iblk0 V c 2 t) (iblk0 V c 4 t) (iblk0 V c 3 t) y
    = Cert.Sage.linRelu (V c (Pipeline.arrRef spec0 0)) (V c (Pipeline.arrRef spec0 1)) (V c (Pipeline.arrRef spec0 2))
        (V c (Pipeline.arrRef spec0 3)) (V c (Pipeline.arrRef spec0 4)) (((cfg0.win 5).blk t).view.emb y)
  exact tile_entry (V c (Pipeline.arrRef spec0 0)) (V c (Pipeline.arrRef spec0 1)) (V c (Pipeline.arrRef spec0 2))
    (V c (Pipeline.arrRef spec0 3)) (V c (Pipeline.arrRef spec0 4))
    (iblk0 V c 0 t) (iblk0 V c 1 t) (iblk0 V c 2 t) (iblk0 V c 3 t) (iblk0 V c 4 t) y (((cfg0.win 5).blk t).view.emb y)
    (fun k => rows0 V c t (y 0) k _ (tile_row t y)) (fun k => rows1 V c t (y 0) k _ (tile_row t y))
    (fun k => whole2 V c t k (y 1) _ (tile_col t y)) (whole3 V c t (y 1) _ (tile_col t y))
    (fun k => whole4 V c t k (y 1) _ (tile_col t y))

/-! ## The tiles fill the result -/

/-- An index of the result is in step t's tile iff each coordinate is in the tile's range on its axis. -/
theorem mem_tile (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v26).slice (win0_5.rect t)).set ↔ _
  rw [View.set_slice_whole, Rect.mem_set_unit]
  exact Iff.rfl

/-- Every index of the result is in the tile of the step its row falls in, row / 2000. -/
theorem covered (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : grid0.N = 25 := N_0
  obtain ⟨t, ht⟩ : ∃ t : Fin cfg0.N, t.val = (i 0).val / 2000 :=
    ⟨⟨(i 0).val / 2000, by show (i 0).val / 2000 < grid0.N; rw [hN]; omega⟩, rfl⟩
  obtain ⟨e00, e01, e10, e11, e20, e21, e30, e31, e40, e41, e50, e51⟩ := block_index t
  refine ⟨t, flush0_5 t, ?_⟩
  rw [mem_tile]
  intro a
  match a with
  | ⟨0, _⟩ =>
    show win0_5.index t (0 : Fin 2) * 2000 ≤ (i 0).val ∧ (i 0).val < win0_5.index t (0 : Fin 2) * 2000 + 2000
    rw [e50, ht]; omega
  | ⟨1, _⟩ =>
    show win0_5.index t (1 : Fin 2) * 256 ≤ (i 1).val ∧ (i 1).val < win0_5.index t (1 : Fin 2) * 256 + 256
    rw [e51]; omega

/-! ## The array the steps leave -/

/-- After the 25 steps the result array is the layer of the five arrays the steps found. -/
theorem arr (c : Dev nD) :
    ((dat0 (F := Ideal) V c).arrAt 5 cfg0.N : S50000x256.Idx → EReal)
      = Cert.Sage.linRelu (V c (Pipeline.arrRef spec0 0)) (V c (Pipeline.arrRef spec0 1)) (V c (Pipeline.arrRef spec0 2))
          (V c (Pipeline.arrRef spec0 3)) (V c (Pipeline.arrRef spec0 4)) :=
  (dat0 (F := Ideal) V c).arrAt_eq_of_cover 5 _ (fun t _ => flushed_eq V c t) covered

end Cert.KernelIdeal.Region0

end
-- ==== Proof.Region1.lean ====
/-
  The first dense layer on the other node set (the second of the program's four tiled products), as one function of
  whole arrays.

  The layer takes a matrix of aggregated neighbour features and a matrix of the nodes' own features, both
  50000 × 128, two 128 × 256 weight matrices and a 1 × 256 bias row, and produces the 50000 × 256 matrix whose
  entry (r, c) is the positive part of

      (∑ k, mean (r, k) · wl (k, c))  +  (∑ k, xdst (r, k) · wr (k, c))  +  b (0, c).

  The program computes it in 25 steps.  Step t holds rows 2000·t … 2000·t + 1999 of the two feature matrices,
  the two weight matrices and the bias row whole, and produces rows 2000·t … 2000·t + 1999 of the result.
  Entry (r, c) of that tile depends on row r of each row block — which is row 2000·t + r of the feature matrix —,
  on column c of each weight matrix and on entry c of the bias row: so the tile's entry (r, c) IS the layer's
  entry (2000·t + r, c), and nothing else of the inputs enters it.  Both products are accumulated from zero, and
  rounding the operands to a narrower float format on the way into the product is the identity on extended reals.

  Every row index r below 50000 lies in exactly one tile, the one of step r / 2000, since
  2000 · (r / 2000) ≤ r < 2000 · (r / 2000) + 2000 and r / 2000 < 25; the tiles take all 256 columns.  So the
  25 tiles written back fill the result exactly, and the array the steps leave is the layer of the arrays they found.
-/
import proofs.«151542_j71408126263375_1_alg».proof.Proof.Gen.KernelIdeal.Frame
import proofs.«151542_j71408126263375_1_alg».proof.Proof.LibDenseLayer
import Idealize.ShloMosaic.Lib.Pipeline.Value
import Idealize.ShloMosaic.Lib.ValueLayout

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-! ## One entry of a tile -/

/-- Entry y of the tile the body computes from a block of 2000 rows of each feature matrix (x0, x1), the two
    weight matrices (x2, x4) and the bias row (x3) is the layer's entry I, as soon as row y 0 of each row block
    is row I 0 of its matrix, column y 1 of each weight block is column I 1 of its matrix, and the bias block at
    column y 1 is the bias row at column I 1. -/
theorem tile_entry
    (A0 A1 : S50000x128.Idx → EReal) (W2 : S128x256.Idx → EReal) (B3 : S1x256.Idx → EReal) (W4 : S128x256.Idx → EReal)
    (x0 x1 : Vec Ideal S2000x128 .f32) (x2 : Vec Ideal S128x256 .f32) (x3 : Vec Ideal S1x256 .f32)
    (x4 : Vec Ideal S128x256 .f32) (y : S2000x256.Idx) (I : S50000x256.Idx)
    (h0 : ∀ k : Fin 128, x0 (ix2 (y 0) k) = A0 (ix2 (I 0) k))
    (h1 : ∀ k : Fin 128, x1 (ix2 (y 0) k) = A1 (ix2 (I 0) k))
    (h2 : ∀ k : Fin 128, x2 (ix2 k (y 1)) = W2 (ix2 k (I 1)))
    (h3 : x3 (ix2 (0 : Fin 1) (y 1)) = B3 (ix2 (0 : Fin 1) (I 1)))
    (h4 : ∀ k : Fin 128, x4 (ix2 k (y 1)) = W4 (ix2 k (I 1))) :
    k1_pay1 (F := Ideal) x0 x1 x2 x4 x3 y = Cert.Sage.linRelu A0 A1 W2 B3 W4 I := by
  rw [Cert.Sage.linRelu_apply, Cert.Sage.lin_apply]
  unfold k1_pay1
  refine congrArg₂ max (congrArg₂ (· + ·) (congrArg₂ (· + ·) ?_ ?_) ?_) rfl
  · -- the first product: rows of x0 against columns of x2
    exact Cert.Gemm.tile_apply (φ₁ := .bf16) (φ₂ := .bf16) A0 W2 x0 x2
      dot_S2000x128_S128x256_S2000x256_1_0_0_1_n_n rfl _ _ y I h0 h2
  · -- the second product: rows of x1 (which reach the product uncast) against columns of x4
    have e := Cert.Gemm.tile_apply (φ₁ := .bf16) (φ₂ := .bf16) A1 W4 x1 x4
      dot_S2000x128_S128x256_S2000x256_1_0_0_1_n_n rfl Gen.shapeCasts_S2000x128_S2000x128 Gen.shapeCasts_S128x256_S128x256 y I h1 h4
    rw [shapeCast_self x1] at e
    exact e
  · -- the bias: one row, read at the entry's column
    refine (congrArg (broadcastTo S2000x256 (shapeCast S1x256 x3 _) _) (eq_ix2 y)).trans ?_
    refine (broadcastTo_1b_ab_apply _ _ (y 0) (y 1)).trans ?_
    rw [shapeCast_self]
    exact h3

/-! ## The blocks a step holds -/

theorem zeros : (![0, 0] : Fin 2 → Nat) = fun _ => 0 := funext fun a => by fin_cases a <;> rfl

/-- The block indices of the six windows at step t: the two row blocks and the result tile are at block row t,
    block column 0; the weight matrices and the bias row are their one block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Where the tile's entry y sits in the result: at row 2000·t + (its row), at its own column. -/
theorem tile_row (t : Fin cfg1.N) (y : S2000x256.Idx) :
    ((((cfg1.win 5).blk t).view.emb y) 0).val = t.val * 2000 + (y 0).val := by
  show win1_5.index t (0 : Fin 2) * 2000 + 1 * (y 0).val = _
  rw [(block_index t).2.2.2.2.2.2.2.2.2.2.1]; omega

theorem tile_col (t : Fin cfg1.N) (y : S2000x256.Idx) :
    ((((cfg1.win 5).blk t).view.emb y) 1).val = (y 1).val := by
  show win1_5.index t (1 : Fin 2) * 256 + 1 * (y 1).val = _
  rw [(block_index t).2.2.2.2.2.2.2.2.2.2.2]; omega

/-- Row r of the first feature block at step t is row 2000·t + r of the first feature matrix. -/
theorem rows0 (c : Dev nD) (t : Fin cfg1.N) (r : Fin 2000) (k : Fin 128) (R : Fin 50000)
    (hR : R.val = t.val * 2000 + r.val) :
    (iblk1 (F := Ideal) V c 0 t : Vec Ideal S2000x128 .f32) (ix2 r k)
      = (V c (Pipeline.arrRef spec1 0) : S50000x128.Idx → EReal) (ix2 R k) := by
  show V c (Pipeline.arrRef spec1 0) (((cfg1.win 0).blk t).view.emb (ix2 r k)) = _
  refine congrArg (V c (Pipeline.arrRef spec1 0)) (funext fun a => Fin.ext ?_)
  match a with
  | ⟨0, _⟩ => show win1_0.index t (0 : Fin 2) * 2000 + 1 * r.val = R.val; rw [(block_index t).1, hR]; omega
  | ⟨1, _⟩ => show win1_0.index t (1 : Fin 2) * 128 + 1 * k.val = k.val; rw [(block_index t).2.1]; omega

/-- Row r of the second feature block at step t is row 2000·t + r of the second feature matrix. -/
theorem rows1 (c : Dev nD) (t : Fin cfg1.N) (r : Fin 2000) (k : Fin 128) (R : Fin 50000)
    (hR : R.val = t.val * 2000 + r.val) :
    (iblk1 (F := Ideal) V c 1 t : Vec Ideal S2000x128 .f32) (ix2 r k)
      = (V c (Pipeline.arrRef spec1 1) : S50000x128.Idx → EReal) (ix2 R k) := by
  show V c (Pipeline.arrRef spec1 1) (((cfg1.win 1).blk t).view.emb (ix2 r k)) = _
  refine congrArg (V c (Pipeline.arrRef spec1 1)) (funext fun a => Fin.ext ?_)
  match a with
  | ⟨0, _⟩ => show win1_1.index t (0 : Fin 2) * 2000 + 1 * r.val = R.val; rw [(block_index t).2.2.1, hR]; omega
  | ⟨1, _⟩ => show win1_1.index t (1 : Fin 2) * 128 + 1 * k.val = k.val; rw [(block_index t).2.2.2.1]; omega

/-- The first weight block at every step is the first weight matrix. -/
theorem whole2 (c : Dev nD) (t : Fin cfg1.N) (k : Fin 128) (q Q : Fin 256) (hQ : Q.val = q.val) :
    (iblk1 (F := Ideal) V c 2 t : Vec Ideal S128x256 .f32) (ix2 k q)
      = (V c (Pipeline.arrRef spec1 2) : S128x256.Idx → EReal) (ix2 k Q) := by
  show V c (Pipeline.arrRef spec1 2) (((cfg1.win 2).blk t).view.emb (ix2 k q)) = _
  refine congrArg (V c (Pipeline.arrRef spec1 2)) (funext fun a => Fin.ext ?_)
  match a with
  | ⟨0, _⟩ => show win1_2.index t (0 : Fin 2) * 128 + 1 * k.val = k.val; rw [(block_index t).2.2.2.2.1]; omega
  | ⟨1, _⟩ => show win1_2.index t (1 : Fin 2) * 256 + 1 * q.val = Q.val; rw [(block_index t).2.2.2.2.2.1, hQ]; omega

/-- The bias block at every step is the bias row. -/
theorem whole3 (c : Dev nD) (t : Fin cfg1.N) (q Q : Fin 256) (hQ : Q.val = q.val) :
    (iblk1 (F := Ideal) V c 3 t : Vec Ideal S1x256 .f32) (ix2 (0 : Fin 1) q)
      = (V c (Pipeline.arrRef spec1 3) : S1x256.Idx → EReal) (ix2 (0 : Fin 1) Q) := by
  show V c (Pipeline.arrRef spec1 3) (((cfg1.win 3).blk t).view.emb (ix2 (0 : Fin 1) q)) = _
  refine congrArg (V c (Pipeline.arrRef spec1 3)) (funext fun a => Fin.ext ?_)
  match a with
  | ⟨0, _⟩ => show win1_3.index t (0 : Fin 2) * 1 + 1 * 0 = 0; rw [(block_index t).2.2.2.2.2.2.1]
  | ⟨1, _⟩ => show win1_3.index t (1 : Fin 2) * 256 + 1 * q.val = Q.val; rw [(block_index t).2.2.2.2.2.2.2.1, hQ]; omega

/-- The second weight block at every step is the second weight matrix. -/
theorem whole4 (c : Dev nD) (t : Fin cfg1.N) (k : Fin 128) (q Q : Fin 256) (hQ : Q.val = q.val) :
    (iblk1 (F := Ideal) V c 4 t : Vec Ideal S128x256 .f32) (ix2 k q)
      = (V c (Pipeline.arrRef spec1 4) : S128x256.Idx → EReal) (ix2 k Q) := by
  show V c (Pipeline.arrRef spec1 4) (((cfg1.win 4).blk t).view.emb (ix2 k q)) = _
  refine congrArg (V c (Pipeline.arrRef spec1 4)) (funext fun a => Fin.ext ?_)
  match a with
  | ⟨0, _⟩ => show win1_4.index t (0 : Fin 2) * 128 + 1 * k.val = k.val; rw [(block_index t).2.2.2.2.2.2.2.2.1]; omega
  | ⟨1, _⟩ => show win1_4.index t (1 : Fin 2) * 256 + 1 * q.val = Q.val; rw [(block_index t).2.2.2.2.2.2.2.2.2.1, hQ]; omega

/-- What step t writes back is tile t of the layer of the arrays the steps found. -/
theorem flushed_eq (c : Dev nD) (t : Fin cfg1.N) :
    (dat1 (F := Ideal) V c).flushed 5 t
      = ((cfg1.win 5).blk t).view.read (Elt Ideal)
          (Cert.Sage.linRelu (V c (Pipeline.arrRef spec1 0)) (V c (Pipeline.arrRef spec1 1)) (V c (Pipeline.arrRef spec1 2))
            (V c (Pipeline.arrRef spec1 3)) (V c (Pipeline.arrRef spec1 4))) := by
  show (cfg1.win 5).cut (grid1.coords t) ((dat1 (F := Ideal) V c).after 5 t) = _
  rw [after1_5]
  unfold out1_5
  rw [View.canon_unit_zero zeros]
  simp only [View.ld_unit_zero (S := S2000x128) zeros, View.ld_unit_zero (S := S128x256) zeros,
    View.ld_unit_zero (S := S1x256) zeros]
  funext y
  show k1_pay1 (F := Ideal) (iblk1 V c 0 t) (iblk1 V c 1 t) (iblk1 V c 2 t) (iblk1 V c 4 t) (iblk1 V c 3 t) y
    = Cert.Sage.linRelu (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb y)
  exact tile_entry (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) y (((cfg1.win 5).blk t).view.emb y)
    (fun k => rows0 V c t (y 0) k _ (tile_row t y)) (fun k => rows1 V c t (y 0) k _ (tile_row t y))
    (fun k => whole2 V c t k (y 1) _ (tile_col t y)) (whole3 V c t (y 1) _ (tile_col t y))
    (fun k => whole4 V c t k (y 1) _ (tile_col t y))

/-! ## The tiles fill the result -/

/-- An index of the result is in step t's tile iff each coordinate is in the tile's range on its axis. -/
theorem mem_tile (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v49).slice (win1_5.rect t)).set ↔ _
  rw [View.set_slice_whole, Rect.mem_set_unit]
  exact Iff.rfl

/-- Every index of the result is in the tile of the step its row falls in, row / 2000. -/
theorem covered (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : grid1.N = 25 := N_1
  obtain ⟨t, ht⟩ : ∃ t : Fin cfg1.N, t.val = (i 0).val / 2000 :=
    ⟨⟨(i 0).val / 2000, by show (i 0).val / 2000 < grid1.N; rw [hN]; omega⟩, rfl⟩
  obtain ⟨e00, e01, e10, e11, e20, e21, e30, e31, e40, e41, e50, e51⟩ := block_index t
  refine ⟨t, flush1_5 t, ?_⟩
  rw [mem_tile]
  intro a
  match a with
  | ⟨0, _⟩ =>
    show win1_5.index t (0 : Fin 2) * 2000 ≤ (i 0).val ∧ (i 0).val < win1_5.index t (0 : Fin 2) * 2000 + 2000
    rw [e50, ht]; omega
  | ⟨1, _⟩ =>
    show win1_5.index t (1 : Fin 2) * 256 ≤ (i 1).val ∧ (i 1).val < win1_5.index t (1 : Fin 2) * 256 + 256
    rw [e51]; omega

/-! ## The array the steps leave -/

/-- After the 25 steps the result array is the layer of the five arrays the steps found. -/
theorem arr (c : Dev nD) :
    ((dat1 (F := Ideal) V c).arrAt 5 cfg1.N : S50000x256.Idx → EReal)
      = Cert.Sage.linRelu (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 _ (fun t _ => flushed_eq V c t) covered

end Cert.KernelIdeal.Region1

end
-- ==== Proof.Region2.lean ====
/-
  The second dense layer (the third of the program's four tiled products), as one function of whole arrays.

  The layer takes a matrix of aggregated neighbour features and a matrix of the nodes' own features, both
  50000 × 256, two 256 × 64 weight matrices and a 1 × 64 bias row, and produces the 50000 × 64 matrix whose
  entry (r, c) is

      (∑ k, mean (r, k) · wl (k, c))  +  (∑ k, xdst (r, k) · wr (k, c))  +  b (0, c);

  this layer keeps the sum as it is (no positive part is taken).

  The program computes it in 25 steps.  Step t holds rows 2000·t … 2000·t + 1999 of the two feature matrices,
  the two weight matrices and the bias row whole, and produces rows 2000·t … 2000·t + 1999 of the result.
  Entry (r, c) of that tile depends on row r of each row block — which is row 2000·t + r of the feature matrix —,
  on column c of each weight matrix and on entry c of the bias row: so the tile's entry (r, c) IS the layer's
  entry (2000·t + r, c), and nothing else of the inputs enters it.  Both products are accumulated from zero, and
  rounding the operands to a narrower float format on the way into the product is the identity on extended reals.

  Every row index r below 50000 lies in exactly one tile, the one of step r / 2000, since
  2000 · (r / 2000) ≤ r < 2000 · (r / 2000) + 2000 and r / 2000 < 25; the tiles take all 64 columns.  So the
  25 tiles written back fill the result exactly, and the array the steps leave is the layer of the arrays they found.
-/
import proofs.«151542_j71408126263375_1_alg».proof.Proof.Gen.KernelIdeal.Frame
import proofs.«151542_j71408126263375_1_alg».proof.Proof.LibDenseLayer
import Idealize.ShloMosaic.Lib.Pipeline.Value
import Idealize.ShloMosaic.Lib.ValueLayout

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-! ## One entry of a tile -/

/-- Entry y of the tile the body computes from a block of 2000 rows of each feature matrix (x0, x1), the two
    weight matrices (x2, x4) and the bias row (x3) is the layer's entry I, as soon as row y 0 of each row block
    is row I 0 of its matrix, column y 1 of each weight block is column I 1 of its matrix, and the bias block at
    column y 1 is the bias row at column I 1. -/
theorem tile_entry
    (A0 A1 : S50000x256.Idx → EReal) (W2 : S256x64.Idx → EReal) (B3 : S1x64.Idx → EReal) (W4 : S256x64.Idx → EReal)
    (x0 x1 : Vec Ideal S2000x256 .f32) (x2 : Vec Ideal S256x64 .f32) (x3 : Vec Ideal S1x64 .f32)
    (x4 : Vec Ideal S256x64 .f32) (y : S2000x64.Idx) (I : S50000x64.Idx)
    (h0 : ∀ k : Fin 256, x0 (ix2 (y 0) k) = A0 (ix2 (I 0) k))
    (h1 : ∀ k : Fin 256, x1 (ix2 (y 0) k) = A1 (ix2 (I 0) k))
    (h2 : ∀ k : Fin 256, x2 (ix2 k (y 1)) = W2 (ix2 k (I 1)))
    (h3 : x3 (ix2 (0 : Fin 1) (y 1)) = B3 (ix2 (0 : Fin 1) (I 1)))
    (h4 : ∀ k : Fin 256, x4 (ix2 k (y 1)) = W4 (ix2 k (I 1))) :
    k2_pay1 (F := Ideal) x0 x1 x2 x4 x3 y = Cert.Sage.lin A0 A1 W2 B3 W4 I := by
  rw [Cert.Sage.lin_apply]
  unfold k2_pay1
  refine congrArg₂ (· + ·) (congrArg₂ (· + ·) ?_ ?_) ?_
  · -- the first product: rows of x0 against columns of x2
    exact Cert.Gemm.tile_apply (φ₁ := .bf16) (φ₂ := .bf16) A0 W2 x0 x2
      dot_S2000x256_S256x64_S2000x64_1_0_0_1_n_n rfl _ _ y I h0 h2
  · -- the second product: rows of x1 against columns of x4
    exact Cert.Gemm.tile_apply (φ₁ := .bf16) (φ₂ := .bf16) A1 W4 x1 x4
      dot_S2000x256_S256x64_S2000x64_1_0_0_1_n_n rfl _ _ y I h1 h4
  · -- the bias: one row, read at the entry's column
    refine (congrArg (broadcastTo S2000x64 (shapeCast S1x64 x3 _) _) (eq_ix2 y)).trans ?_
    refine (broadcastTo_1b_ab_apply _ _ (y 0) (y 1)).trans ?_
    rw [shapeCast_self]
    exact h3

/-! ## The blocks a step holds -/

theorem zeros : (![0, 0] : Fin 2 → Nat) = fun _ => 0 := funext fun a => by fin_cases a <;> rfl

/-- The block indices of the six windows at step t: the two row blocks and the result tile are at block row t,
    block column 0; the weight matrices and the bias row are their one block. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- Where the tile's entry y sits in the result: at row 2000·t + (its row), at its own column. -/
theorem tile_row (t : Fin cfg2.N) (y : S2000x64.Idx) :
    ((((cfg2.win 5).blk t).view.emb y) 0).val = t.val * 2000 + (y 0).val := by
  show win2_5.index t (0 : Fin 2) * 2000 + 1 * (y 0).val = _
  rw [(block_index t).2.2.2.2.2.2.2.2.2.2.1]; omega

theorem tile_col (t : Fin cfg2.N) (y : S2000x64.Idx) :
    ((((cfg2.win 5).blk t).view.emb y) 1).val = (y 1).val := by
  show win2_5.index t (1 : Fin 2) * 64 + 1 * (y 1).val = _
  rw [(block_index t).2.2.2.2.2.2.2.2.2.2.2]; omega

/-- Row r of the first feature block at step t is row 2000·t + r of the first feature matrix. -/
theorem rows0 (c : Dev nD) (t : Fin cfg2.N) (r : Fin 2000) (k : Fin 256) (R : Fin 50000)
    (hR : R.val = t.val * 2000 + r.val) :
    (iblk2 (F := Ideal) V c 0 t : Vec Ideal S2000x256 .f32) (ix2 r k)
      = (V c (Pipeline.arrRef spec2 0) : S50000x256.Idx → EReal) (ix2 R k) := by
  show V c (Pipeline.arrRef spec2 0) (((cfg2.win 0).blk t).view.emb (ix2 r k)) = _
  refine congrArg (V c (Pipeline.arrRef spec2 0)) (funext fun a => Fin.ext ?_)
  match a with
  | ⟨0, _⟩ => show win2_0.index t (0 : Fin 2) * 2000 + 1 * r.val = R.val; rw [(block_index t).1, hR]; omega
  | ⟨1, _⟩ => show win2_0.index t (1 : Fin 2) * 256 + 1 * k.val = k.val; rw [(block_index t).2.1]; omega

/-- Row r of the second feature block at step t is row 2000·t + r of the second feature matrix. -/
theorem rows1 (c : Dev nD) (t : Fin cfg2.N) (r : Fin 2000) (k : Fin 256) (R : Fin 50000)
    (hR : R.val = t.val * 2000 + r.val) :
    (iblk2 (F := Ideal) V c 1 t : Vec Ideal S2000x256 .f32) (ix2 r k)
      = (V c (Pipeline.arrRef spec2 1) : S50000x256.Idx → EReal) (ix2 R k) := by
  show V c (Pipeline.arrRef spec2 1) (((cfg2.win 1).blk t).view.emb (ix2 r k)) = _
  refine congrArg (V c (Pipeline.arrRef spec2 1)) (funext fun a => Fin.ext ?_)
  match a with
  | ⟨0, _⟩ => show win2_1.index t (0 : Fin 2) * 2000 + 1 * r.val = R.val; rw [(block_index t).2.2.1, hR]; omega
  | ⟨1, _⟩ => show win2_1.index t (1 : Fin 2) * 256 + 1 * k.val = k.val; rw [(block_index t).2.2.2.1]; omega

/-- The first weight block at every step is the first weight matrix. -/
theorem whole2 (c : Dev nD) (t : Fin cfg2.N) (k : Fin 256) (q Q : Fin 64) (hQ : Q.val = q.val) :
    (iblk2 (F := Ideal) V c 2 t : Vec Ideal S256x64 .f32) (ix2 k q)
      = (V c (Pipeline.arrRef spec2 2) : S256x64.Idx → EReal) (ix2 k Q) := by
  show V c (Pipeline.arrRef spec2 2) (((cfg2.win 2).blk t).view.emb (ix2 k q)) = _
  refine congrArg (V c (Pipeline.arrRef spec2 2)) (funext fun a => Fin.ext ?_)
  match a with
  | ⟨0, _⟩ => show win2_2.index t (0 : Fin 2) * 256 + 1 * k.val = k.val; rw [(block_index t).2.2.2.2.1]; omega
  | ⟨1, _⟩ => show win2_2.index t (1 : Fin 2) * 64 + 1 * q.val = Q.val; rw [(block_index t).2.2.2.2.2.1, hQ]; omega

/-- The bias block at every step is the bias row. -/
theorem whole3 (c : Dev nD) (t : Fin cfg2.N) (q Q : Fin 64) (hQ : Q.val = q.val) :
    (iblk2 (F := Ideal) V c 3 t : Vec Ideal S1x64 .f32) (ix2 (0 : Fin 1) q)
      = (V c (Pipeline.arrRef spec2 3) : S1x64.Idx → EReal) (ix2 (0 : Fin 1) Q) := by
  show V c (Pipeline.arrRef spec2 3) (((cfg2.win 3).blk t).view.emb (ix2 (0 : Fin 1) q)) = _
  refine congrArg (V c (Pipeline.arrRef spec2 3)) (funext fun a => Fin.ext ?_)
  match a with
  | ⟨0, _⟩ => show win2_3.index t (0 : Fin 2) * 1 + 1 * 0 = 0; rw [(block_index t).2.2.2.2.2.2.1]
  | ⟨1, _⟩ => show win2_3.index t (1 : Fin 2) * 64 + 1 * q.val = Q.val; rw [(block_index t).2.2.2.2.2.2.2.1, hQ]; omega

/-- The second weight block at every step is the second weight matrix. -/
theorem whole4 (c : Dev nD) (t : Fin cfg2.N) (k : Fin 256) (q Q : Fin 64) (hQ : Q.val = q.val) :
    (iblk2 (F := Ideal) V c 4 t : Vec Ideal S256x64 .f32) (ix2 k q)
      = (V c (Pipeline.arrRef spec2 4) : S256x64.Idx → EReal) (ix2 k Q) := by
  show V c (Pipeline.arrRef spec2 4) (((cfg2.win 4).blk t).view.emb (ix2 k q)) = _
  refine congrArg (V c (Pipeline.arrRef spec2 4)) (funext fun a => Fin.ext ?_)
  match a with
  | ⟨0, _⟩ => show win2_4.index t (0 : Fin 2) * 256 + 1 * k.val = k.val; rw [(block_index t).2.2.2.2.2.2.2.2.1]; omega
  | ⟨1, _⟩ => show win2_4.index t (1 : Fin 2) * 64 + 1 * q.val = Q.val; rw [(block_index t).2.2.2.2.2.2.2.2.2.1, hQ]; omega

/-- What step t writes back is tile t of the layer of the arrays the steps found. -/
theorem flushed_eq (c : Dev nD) (t : Fin cfg2.N) :
    (dat2 (F := Ideal) V c).flushed 5 t
      = ((cfg2.win 5).blk t).view.read (Elt Ideal)
          (Cert.Sage.lin (V c (Pipeline.arrRef spec2 0)) (V c (Pipeline.arrRef spec2 1)) (V c (Pipeline.arrRef spec2 2))
            (V c (Pipeline.arrRef spec2 3)) (V c (Pipeline.arrRef spec2 4))) := by
  show (cfg2.win 5).cut (grid2.coords t) ((dat2 (F := Ideal) V c).after 5 t) = _
  rw [after2_5]
  unfold out2_5
  rw [View.canon_unit_zero zeros]
  simp only [View.ld_unit_zero (S := S2000x256) zeros, View.ld_unit_zero (S := S256x64) zeros,
    View.ld_unit_zero (S := S1x64) zeros]
  funext y
  show k2_pay1 (F := Ideal) (iblk2 V c 0 t) (iblk2 V c 1 t) (iblk2 V c 2 t) (iblk2 V c 4 t) (iblk2 V c 3 t) y
    = Cert.Sage.lin (V c (Pipeline.arrRef spec2 0)) (V c (Pipeline.arrRef spec2 1)) (V c (Pipeline.arrRef spec2 2))
        (V c (Pipeline.arrRef spec2 3)) (V c (Pipeline.arrRef spec2 4)) (((cfg2.win 5).blk t).view.emb y)
  exact tile_entry (V c (Pipeline.arrRef spec2 0)) (V c (Pipeline.arrRef spec2 1)) (V c (Pipeline.arrRef spec2 2))
    (V c (Pipeline.arrRef spec2 3)) (V c (Pipeline.arrRef spec2 4))
    (iblk2 V c 0 t) (iblk2 V c 1 t) (iblk2 V c 2 t) (iblk2 V c 3 t) (iblk2 V c 4 t) y (((cfg2.win 5).blk t).view.emb y)
    (fun k => rows0 V c t (y 0) k _ (tile_row t y)) (fun k => rows1 V c t (y 0) k _ (tile_row t y))
    (fun k => whole2 V c t k (y 1) _ (tile_col t y)) (whole3 V c t (y 1) _ (tile_col t y))
    (fun k => whole4 V c t k (y 1) _ (tile_col t y))

/-! ## The tiles fill the result -/

/-- An index of the result is in step t's tile iff each coordinate is in the tile's range on its axis. -/
theorem mem_tile (t : Fin cfg2.N) (i : S50000x64.Idx) :
    i ∈ ((cfg2.win 5).blk t).view.set ↔ ∀ a : Fin 2, win2_5.index t a * S2000x64.size a ≤ (i a).val
      ∧ (i a).val < win2_5.index t a * S2000x64.size a + S2000x64.size a := by
  show i ∈ ((View.whole main_v72).slice (win2_5.rect t)).set ↔ _
  rw [View.set_slice_whole, Rect.mem_set_unit]
  exact Iff.rfl

/-- Every index of the result is in the tile of the step its row falls in, row / 2000. -/
theorem covered (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : grid2.N = 25 := N_2
  obtain ⟨t, ht⟩ : ∃ t : Fin cfg2.N, t.val = (i 0).val / 2000 :=
    ⟨⟨(i 0).val / 2000, by show (i 0).val / 2000 < grid2.N; rw [hN]; omega⟩, rfl⟩
  obtain ⟨e00, e01, e10, e11, e20, e21, e30, e31, e40, e41, e50, e51⟩ := block_index t
  refine ⟨t, flush2_5 t, ?_⟩
  rw [mem_tile]
  intro a
  match a with
  | ⟨0, _⟩ =>
    show win2_5.index t (0 : Fin 2) * 2000 ≤ (i 0).val ∧ (i 0).val < win2_5.index t (0 : Fin 2) * 2000 + 2000
    rw [e50, ht]; omega
  | ⟨1, _⟩ =>
    show win2_5.index t (1 : Fin 2) * 64 ≤ (i 1).val ∧ (i 1).val < win2_5.index t (1 : Fin 2) * 64 + 64
    rw [e51]; omega

/-! ## The array the steps leave -/

/-- After the 25 steps the result array is the layer of the five arrays the steps found. -/
theorem arr (c : Dev nD) :
    ((dat2 (F := Ideal) V c).arrAt 5 cfg2.N : S50000x64.Idx → EReal)
      = Cert.Sage.lin (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 _ (fun t _ => flushed_eq V c t) covered

end Cert.KernelIdeal.Region2

end
-- ==== Proof.Region3.lean ====
/-
  The second dense layer on the other node set (the last of the program's four tiled products), as one function of
  whole arrays.

  The layer takes a matrix of aggregated neighbour features and a matrix of the nodes' own features, both
  50000 × 256, two 256 × 64 weight matrices and a 1 × 64 bias row, and produces the 50000 × 64 matrix whose
  entry (r, c) is

      (∑ k, mean (r, k) · wl (k, c))  +  (∑ k, xdst (r, k) · wr (k, c))  +  b (0, c);

  this layer keeps the sum as it is (no positive part is taken).

  The program computes it in 25 steps.  Step t holds rows 2000·t … 2000·t + 1999 of the two feature matrices,
  the two weight matrices and the bias row whole, and produces rows 2000·t … 2000·t + 1999 of the result.
  Entry (r, c) of that tile depends on row r of each row block — which is row 2000·t + r of the feature matrix —,
  on column c of each weight matrix and on entry c of the bias row: so the tile's entry (r, c) IS the layer's
  entry (2000·t + r, c), and nothing else of the inputs enters it.  Both products are accumulated from zero, and
  rounding the operands to a narrower float format on the way into the product is the identity on extended reals.

  Every row index r below 50000 lies in exactly one tile, the one of step r / 2000, since
  2000 · (r / 2000) ≤ r < 2000 · (r / 2000) + 2000 and r / 2000 < 25; the tiles take all 64 columns.  So the
  25 tiles written back fill the result exactly, and the array the steps leave is the layer of the arrays they found.
-/
import proofs.«151542_j71408126263375_1_alg».proof.Proof.Gen.KernelIdeal.Frame
import proofs.«151542_j71408126263375_1_alg».proof.Proof.LibDenseLayer
import Idealize.ShloMosaic.Lib.Pipeline.Value
import Idealize.ShloMosaic.Lib.ValueLayout

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

/-! ## One entry of a tile -/

/-- Entry y of the tile the body computes from a block of 2000 rows of each feature matrix (x0, x1), the two
    weight matrices (x2, x4) and the bias row (x3) is the layer's entry I, as soon as row y 0 of each row block
    is row I 0 of its matrix, column y 1 of each weight block is column I 1 of its matrix, and the bias block at
    column y 1 is the bias row at column I 1. -/
theorem tile_entry
    (A0 A1 : S50000x256.Idx → EReal) (W2 : S256x64.Idx → EReal) (B3 : S1x64.Idx → EReal) (W4 : S256x64.Idx → EReal)
    (x0 x1 : Vec Ideal S2000x256 .f32) (x2 : Vec Ideal S256x64 .f32) (x3 : Vec Ideal S1x64 .f32)
    (x4 : Vec Ideal S256x64 .f32) (y : S2000x64.Idx) (I : S50000x64.Idx)
    (h0 : ∀ k : Fin 256, x0 (ix2 (y 0) k) = A0 (ix2 (I 0) k))
    (h1 : ∀ k : Fin 256, x1 (ix2 (y 0) k) = A1 (ix2 (I 0) k))
    (h2 : ∀ k : Fin 256, x2 (ix2 k (y 1)) = W2 (ix2 k (I 1)))
    (h3 : x3 (ix2 (0 : Fin 1) (y 1)) = B3 (ix2 (0 : Fin 1) (I 1)))
    (h4 : ∀ k : Fin 256, x4 (ix2 k (y 1)) = W4 (ix2 k (I 1))) :
    k3_pay1 (F := Ideal) x0 x1 x2 x4 x3 y = Cert.Sage.lin A0 A1 W2 B3 W4 I := by
  rw [Cert.Sage.lin_apply]
  unfold k3_pay1
  refine congrArg₂ (· + ·) (congrArg₂ (· + ·) ?_ ?_) ?_
  · -- the first product: rows of x0 against columns of x2
    exact Cert.Gemm.tile_apply (φ₁ := .bf16) (φ₂ := .bf16) A0 W2 x0 x2
      dot_S2000x256_S256x64_S2000x64_1_0_0_1_n_n rfl _ _ y I h0 h2
  · -- the second product: rows of x1 against columns of x4
    exact Cert.Gemm.tile_apply (φ₁ := .bf16) (φ₂ := .bf16) A1 W4 x1 x4
      dot_S2000x256_S256x64_S2000x64_1_0_0_1_n_n rfl _ _ y I h1 h4
  · -- the bias: one row, read at the entry's column
    refine (congrArg (broadcastTo S2000x64 (shapeCast S1x64 x3 _) _) (eq_ix2 y)).trans ?_
    refine (broadcastTo_1b_ab_apply _ _ (y 0) (y 1)).trans ?_
    rw [shapeCast_self]
    exact h3

/-! ## The blocks a step holds -/

theorem zeros : (![0, 0] : Fin 2 → Nat) = fun _ => 0 := funext fun a => by fin_cases a <;> rfl

/-- The block indices of the six windows at step t: the two row blocks and the result tile are at block row t,
    block column 0; the weight matrices and the bias row are their one block. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

/-- Where the tile's entry y sits in the result: at row 2000·t + (its row), at its own column. -/
theorem tile_row (t : Fin cfg3.N) (y : S2000x64.Idx) :
    ((((cfg3.win 5).blk t).view.emb y) 0).val = t.val * 2000 + (y 0).val := by
  show win3_5.index t (0 : Fin 2) * 2000 + 1 * (y 0).val = _
  rw [(block_index t).2.2.2.2.2.2.2.2.2.2.1]; omega

theorem tile_col (t : Fin cfg3.N) (y : S2000x64.Idx) :
    ((((cfg3.win 5).blk t).view.emb y) 1).val = (y 1).val := by
  show win3_5.index t (1 : Fin 2) * 64 + 1 * (y 1).val = _
  rw [(block_index t).2.2.2.2.2.2.2.2.2.2.2]; omega

/-- Row r of the first feature block at step t is row 2000·t + r of the first feature matrix. -/
theorem rows0 (c : Dev nD) (t : Fin cfg3.N) (r : Fin 2000) (k : Fin 256) (R : Fin 50000)
    (hR : R.val = t.val * 2000 + r.val) :
    (iblk3 (F := Ideal) V c 0 t : Vec Ideal S2000x256 .f32) (ix2 r k)
      = (V c (Pipeline.arrRef spec3 0) : S50000x256.Idx → EReal) (ix2 R k) := by
  show V c (Pipeline.arrRef spec3 0) (((cfg3.win 0).blk t).view.emb (ix2 r k)) = _
  refine congrArg (V c (Pipeline.arrRef spec3 0)) (funext fun a => Fin.ext ?_)
  match a with
  | ⟨0, _⟩ => show win3_0.index t (0 : Fin 2) * 2000 + 1 * r.val = R.val; rw [(block_index t).1, hR]; omega
  | ⟨1, _⟩ => show win3_0.index t (1 : Fin 2) * 256 + 1 * k.val = k.val; rw [(block_index t).2.1]; omega

/-- Row r of the second feature block at step t is row 2000·t + r of the second feature matrix. -/
theorem rows1 (c : Dev nD) (t : Fin cfg3.N) (r : Fin 2000) (k : Fin 256) (R : Fin 50000)
    (hR : R.val = t.val * 2000 + r.val) :
    (iblk3 (F := Ideal) V c 1 t : Vec Ideal S2000x256 .f32) (ix2 r k)
      = (V c (Pipeline.arrRef spec3 1) : S50000x256.Idx → EReal) (ix2 R k) := by
  show V c (Pipeline.arrRef spec3 1) (((cfg3.win 1).blk t).view.emb (ix2 r k)) = _
  refine congrArg (V c (Pipeline.arrRef spec3 1)) (funext fun a => Fin.ext ?_)
  match a with
  | ⟨0, _⟩ => show win3_1.index t (0 : Fin 2) * 2000 + 1 * r.val = R.val; rw [(block_index t).2.2.1, hR]; omega
  | ⟨1, _⟩ => show win3_1.index t (1 : Fin 2) * 256 + 1 * k.val = k.val; rw [(block_index t).2.2.2.1]; omega

/-- The first weight block at every step is the first weight matrix. -/
theorem whole2 (c : Dev nD) (t : Fin cfg3.N) (k : Fin 256) (q Q : Fin 64) (hQ : Q.val = q.val) :
    (iblk3 (F := Ideal) V c 2 t : Vec Ideal S256x64 .f32) (ix2 k q)
      = (V c (Pipeline.arrRef spec3 2) : S256x64.Idx → EReal) (ix2 k Q) := by
  show V c (Pipeline.arrRef spec3 2) (((cfg3.win 2).blk t).view.emb (ix2 k q)) = _
  refine congrArg (V c (Pipeline.arrRef spec3 2)) (funext fun a => Fin.ext ?_)
  match a with
  | ⟨0, _⟩ => show win3_2.index t (0 : Fin 2) * 256 + 1 * k.val = k.val; rw [(block_index t).2.2.2.2.1]; omega
  | ⟨1, _⟩ => show win3_2.index t (1 : Fin 2) * 64 + 1 * q.val = Q.val; rw [(block_index t).2.2.2.2.2.1, hQ]; omega

/-- The bias block at every step is the bias row. -/
theorem whole3 (c : Dev nD) (t : Fin cfg3.N) (q Q : Fin 64) (hQ : Q.val = q.val) :
    (iblk3 (F := Ideal) V c 3 t : Vec Ideal S1x64 .f32) (ix2 (0 : Fin 1) q)
      = (V c (Pipeline.arrRef spec3 3) : S1x64.Idx → EReal) (ix2 (0 : Fin 1) Q) := by
  show V c (Pipeline.arrRef spec3 3) (((cfg3.win 3).blk t).view.emb (ix2 (0 : Fin 1) q)) = _
  refine congrArg (V c (Pipeline.arrRef spec3 3)) (funext fun a => Fin.ext ?_)
  match a with
  | ⟨0, _⟩ => show win3_3.index t (0 : Fin 2) * 1 + 1 * 0 = 0; rw [(block_index t).2.2.2.2.2.2.1]
  | ⟨1, _⟩ => show win3_3.index t (1 : Fin 2) * 64 + 1 * q.val = Q.val; rw [(block_index t).2.2.2.2.2.2.2.1, hQ]; omega

/-- The second weight block at every step is the second weight matrix. -/
theorem whole4 (c : Dev nD) (t : Fin cfg3.N) (k : Fin 256) (q Q : Fin 64) (hQ : Q.val = q.val) :
    (iblk3 (F := Ideal) V c 4 t : Vec Ideal S256x64 .f32) (ix2 k q)
      = (V c (Pipeline.arrRef spec3 4) : S256x64.Idx → EReal) (ix2 k Q) := by
  show V c (Pipeline.arrRef spec3 4) (((cfg3.win 4).blk t).view.emb (ix2 k q)) = _
  refine congrArg (V c (Pipeline.arrRef spec3 4)) (funext fun a => Fin.ext ?_)
  match a with
  | ⟨0, _⟩ => show win3_4.index t (0 : Fin 2) * 256 + 1 * k.val = k.val; rw [(block_index t).2.2.2.2.2.2.2.2.1]; omega
  | ⟨1, _⟩ => show win3_4.index t (1 : Fin 2) * 64 + 1 * q.val = Q.val; rw [(block_index t).2.2.2.2.2.2.2.2.2.1, hQ]; omega

/-- What step t writes back is tile t of the layer of the arrays the steps found. -/
theorem flushed_eq (c : Dev nD) (t : Fin cfg3.N) :
    (dat3 (F := Ideal) V c).flushed 5 t
      = ((cfg3.win 5).blk t).view.read (Elt Ideal)
          (Cert.Sage.lin (V c (Pipeline.arrRef spec3 0)) (V c (Pipeline.arrRef spec3 1)) (V c (Pipeline.arrRef spec3 2))
            (V c (Pipeline.arrRef spec3 3)) (V c (Pipeline.arrRef spec3 4))) := by
  show (cfg3.win 5).cut (grid3.coords t) ((dat3 (F := Ideal) V c).after 5 t) = _
  rw [after3_5]
  unfold out3_5
  rw [View.canon_unit_zero zeros]
  simp only [View.ld_unit_zero (S := S2000x256) zeros, View.ld_unit_zero (S := S256x64) zeros,
    View.ld_unit_zero (S := S1x64) zeros]
  funext y
  show k3_pay1 (F := Ideal) (iblk3 V c 0 t) (iblk3 V c 1 t) (iblk3 V c 2 t) (iblk3 V c 4 t) (iblk3 V c 3 t) y
    = Cert.Sage.lin (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb y)
  exact tile_entry (V c (Pipeline.arrRef spec3 0)) (V c (Pipeline.arrRef spec3 1)) (V c (Pipeline.arrRef spec3 2))
    (V c (Pipeline.arrRef spec3 3)) (V c (Pipeline.arrRef spec3 4))
    (iblk3 V c 0 t) (iblk3 V c 1 t) (iblk3 V c 2 t) (iblk3 V c 3 t) (iblk3 V c 4 t) y (((cfg3.win 5).blk t).view.emb y)
    (fun k => rows0 V c t (y 0) k _ (tile_row t y)) (fun k => rows1 V c t (y 0) k _ (tile_row t y))
    (fun k => whole2 V c t k (y 1) _ (tile_col t y)) (whole3 V c t (y 1) _ (tile_col t y))
    (fun k => whole4 V c t k (y 1) _ (tile_col t y))

/-! ## The tiles fill the result -/

/-- An index of the result is in step t's tile iff each coordinate is in the tile's range on its axis. -/
theorem mem_tile (t : Fin cfg3.N) (i : S50000x64.Idx) :
    i ∈ ((cfg3.win 5).blk t).view.set ↔ ∀ a : Fin 2, win3_5.index t a * S2000x64.size a ≤ (i a).val
      ∧ (i a).val < win3_5.index t a * S2000x64.size a + S2000x64.size a := by
  show i ∈ ((View.whole main_v95).slice (win3_5.rect t)).set ↔ _
  rw [View.set_slice_whole, Rect.mem_set_unit]
  exact Iff.rfl

/-- Every index of the result is in the tile of the step its row falls in, row / 2000. -/
theorem covered (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  have hN : grid3.N = 25 := N_3
  obtain ⟨t, ht⟩ : ∃ t : Fin cfg3.N, t.val = (i 0).val / 2000 :=
    ⟨⟨(i 0).val / 2000, by show (i 0).val / 2000 < grid3.N; rw [hN]; omega⟩, rfl⟩
  obtain ⟨e00, e01, e10, e11, e20, e21, e30, e31, e40, e41, e50, e51⟩ := block_index t
  refine ⟨t, flush3_5 t, ?_⟩
  rw [mem_tile]
  intro a
  match a with
  | ⟨0, _⟩ =>
    show win3_5.index t (0 : Fin 2) * 2000 ≤ (i 0).val ∧ (i 0).val < win3_5.index t (0 : Fin 2) * 2000 + 2000
    rw [e50, ht]; omega
  | ⟨1, _⟩ =>
    show win3_5.index t (1 : Fin 2) * 64 ≤ (i 1).val ∧ (i 1).val < win3_5.index t (1 : Fin 2) * 64 + 64
    rw [e51]; omega

/-! ## The array the steps leave -/

/-- After the 25 steps the result array is the layer of the five arrays the steps found. -/
theorem arr (c : Dev nD) :
    ((dat3 (F := Ideal) V c).arrAt 5 cfg3.N : S50000x64.Idx → EReal)
      = Cert.Sage.lin (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5 _ (fun t _ => flushed_eq V c t) covered

end Cert.KernelIdeal.Region3

end
-- ==== Proof.lean ====
/-
  A two-layer bipartite message-passing network: the fused kernels against the plain reference.

  Both programs aggregate neighbour features the same way — gather the source rows along the edges, add them into
  their destination rows, divide by the in-degree clipped below at one — with the very same host operations.  They
  differ only in the dense part of each of the four layers: the kernel computes, tile of 2000 rows by tile,

      (mean · Wlᵀ  +  xdst · Wrᵀ)  +  b        (then the positive part, in the first two layers),

  with its operands passed through a narrower float format (the identity on extended reals), where the reference
  computes  (mean · Wlᵀ + b) + xdst · Wrᵀ.  Over the extended reals these are the same number: addition there is
  commutative and associative without any finiteness, and both matrix products are the same finite sums.

  The proof follows the kernel program boundary by boundary.  `KRun` names what every buffer holds at the end of a
  run; `ChainA`, `ChainS` read the host stretches (they ARE the reference's aggregation stages, by unfolding);
  `Region0` … `Region3` show that each kernel's output array is the layer function of its operand arrays (the row tiles
  cover the rows exactly once, and a tile's entry is the layer's entry); `LibDenseLayer`, `BridgeRef` identify the layer function
  of the reference's stages with the reference's next stage; `ChainB` puts these together; `Claims` states the five
  claims.
-/
import proofs.«151542_j71408126263375_1_alg».proof.Defs
import proofs.«151542_j71408126263375_1_alg».proof.Proof.Gen.Kernel
import proofs.«151542_j71408126263375_1_alg».proof.Proof.Gen.KernelIdeal
import proofs.«151542_j71408126263375_1_alg».proof.Proof.Gen.ReferenceIdeal
import proofs.«151542_j71408126263375_1_alg».proof.Proof.Gen.Pre_finite_inputs
import proofs.«151542_j71408126263375_1_alg».proof.Proof.Claims
import proofs.«151542_j71408126263375_1_alg».proof.Proof.Region0
import proofs.«151542_j71408126263375_1_alg».proof.Proof.Region1
import proofs.«151542_j71408126263375_1_alg».proof.Proof.Region2
import proofs.«151542_j71408126263375_1_alg».proof.Proof.Region3

noncomputable section

namespace Cert.Proof

open Idealize.ShloMosaic Idealize.SL.Sem

/-- Each of the four kernels leaves in its output array the dense-layer function of its operand arrays. -/
theorem layers : Cert.KernelIdeal.Chain.Layers where
  k0 := fun V c => Cert.KernelIdeal.Region0.arr V c
  k1 := fun V c => Cert.KernelIdeal.Region1.arr V c
  k2 := fun V c => Cert.KernelIdeal.Region2.arr V c
  k3 := fun V c => Cert.KernelIdeal.Region3.arr V c

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic layers⟩

end Cert.Proof

end
